-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v154)) (v1 : (c : Dev Cert.KernelIdeal.nD) → Buf (Elt Ideal) ((c.tc : Thread Cert.KernelIdeal.nD Cert.KernelIdeal.τ).loc Cert.KernelIdeal.main_v137)) (v2 : (c : Dev Cert.KernelIdeal.nD) → Buf (Elt Ideal) ((c.tc : Thread Cert.KernelIdeal.nD Cert.KernelIdeal.τ).loc Cert.KernelIdeal.main_arg16)) (v3 : (c : Dev Cert.KernelIdeal.nD) → Buf (Elt Ideal) ((c.tc : Thread Cert.KernelIdeal.nD Cert.KernelIdeal.τ).loc Cert.KernelIdeal.main_arg17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_v137) = v1 c
          ∧ r.2.mem ((c.tc : Thread Cert.KernelIdeal.nD Cert.KernelIdeal.τ).loc Cert.KernelIdeal.main_arg16) = v2 c
          ∧ r.2.mem ((c.tc : Thread Cert.KernelIdeal.nD Cert.KernelIdeal.τ).loc Cert.KernelIdeal.main_arg17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg16) = v2 c
          ∧ r.2.mem ((c.tc : Thread Cert.ReferenceIdeal.nD Cert.ReferenceIdeal.τ).loc Cert.ReferenceIdeal.main_arg17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x58 : Shape := ⟨2, ![50000, 58]⟩
abbrev S2x800000 : Shape := ⟨2, ![2, 800000]⟩
abbrev S58x300 : Shape := ⟨2, ![58, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S100x58 : Shape := ⟨2, ![100, 58]⟩
abbrev S_ : Shape := ⟨0, ![]⟩

class Facts : Prop where
  bcast_S_S50000x58 : S_.BroadcastsInDim S50000x58 (![] : Fin 0 → Fin S50000x58.rank)
  reducesTo_S50000x58_S_d0_1 : S50000x58.ReducesTo [0, 1] S_
  h_S_ : 0 < S_.numel
  bcast_S_S58x300 : S_.BroadcastsInDim S58x300 (![] : Fin 0 → Fin S58x300.rank)
  reducesTo_S58x300_S_d0_1 : S58x300.ReducesTo [0, 1] S_
  bcast_S_S300 : S_.BroadcastsInDim S300 (![] : Fin 0 → Fin S300.rank)
  reducesTo_S300_S_d0 : S300.ReducesTo [0] S_
  bcast_S_S300x100 : S_.BroadcastsInDim S300x100 (![] : Fin 0 → Fin S300x100.rank)
  reducesTo_S300x100_S_d0_1 : S300x100.ReducesTo [0, 1] S_
  bcast_S_S100 : S_.BroadcastsInDim S100 (![] : Fin 0 → Fin S100.rank)
  reducesTo_S100_S_d0 : S100.ReducesTo [0] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_
  bcast_S_S100x58 : S_.BroadcastsInDim S100x58 (![] : Fin 0 → Fin S100x58.rank)
  reducesTo_S100x58_S_d0_1 : S100x58.ReducesTo [0, 1] S_

variable [Facts]

def fn_part4 {F : FTy → Type} [FloatOps F] (main_arg16 : FVec F S1 .f32) (main_arg17 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S100 .f32) (main_arg14 : FVec F S100x58 .f32) (main_arg15 : FVec F S100 .f32) (main_arg16 : FVec F S1 .f32) (main_arg17 : FVec F S1 .f32) (main_v48 : IVec S_ 1) (main_v49 : FVec F S100x58 .f32) (main_v50 : FVec F S100x58 .f32) : IVec S_ 1 :=
  let main_v51 : IVec S100x58 1 := cmpf .olt main_v49 main_v50
  let main_c_19 : IVec S_ 1 := constantI S_ 1 1#1
  let main_v52 : IVec S_ 1 := (fun x v => Host.reduce IntOp.andi x v reducesTo_S100x58_S_d0_1 h_S_) main_v51 main_c_19
  let main_v53 : IVec S_ 1 := andi main_v48 main_v52
  let main_v54 : FVec F S100 .f32 := Host.absf main_arg13
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S100x58 .f32 := Host.absf main_arg14
  let main_cst_22 : FVec F S_ .f32 := constant S_ .f32 0x7F800000#32
  let main_v60 : FVec F S100x58 .f32 := broadcastInDim S100x58 ![] bcast_S_S100x58 main_cst_22
  let main_v61 : IVec S100x58 1 := cmpf .olt main_v59 main_v60
  let main_c_23 : IVec S_ 1 := constantI S_ 1 1#1
  let main_v62 : IVec S_ 1 := (fun x v => Host.reduce IntOp.andi x v reducesTo_S100x58_S_d0_1 h_S_) main_v61 main_c_23
  let main_v63 : IVec S_ 1 := andi main_v58 main_v62
  let main_v64 : FVec F S100 .f32 := Host.absf main_arg15
  let main_cst_24 : FVec F S_ .f32 := constant S_ .f32 0x7F800000#32
  let main_v65 : FVec F S100 .f32 := broadcastInDim S100 ![] bcast_S_S100 main_cst_24
  let main_v66 : IVec S100 1 := cmpf .olt main_v64 main_v65
  let main_c_25 : IVec S_ 1 := constantI S_ 1 1#1
  let main_v67 : IVec S_ 1 := (fun x v => Host.reduce IntOp.andi x v reducesTo_S100_S_d0 h_S_) main_v66 main_c_25
  fn_part4 (F := F) main_arg16 main_arg17 main_v63 main_v67

def fn_part2 {F : FTy → Type} [FloatOps F] (main_arg9 : FVec F S100x1 .f32) (main_arg10 : FVec F S100x1 .f32) (main_arg11 : FVec F S1 .f32) (main_arg12 : FVec F S100x58 .f32) (main_arg13 : FVec F S100 .f32) (main_arg14 : FVec F S100x58 .f32) (main_arg15 : FVec F S100 .f32) (main_arg16 : FVec F S1 .f32) (main_arg17 : FVec F S1 .f32) (main_v33 : IVec S_ 1) : IVec S_ 1 :=
  let main_v34 : FVec F S100x1 .f32 := Host.absf main_arg9
  let main_cst_12 : FVec F S_ .f32 := constant S_ .f32 0x7F800000#32
  let main_v35 : FVec F S100x1 .f32 := broadcastInDim S100x1 ![] bcast_S_S100x1 main_cst_12
  let main_v36 : IVec S100x1 1 := cmpf .olt main_v34 main_v35
  let main_c_13 : IVec S_ 1 := constantI S_ 1 1#1
  let main_v37 : IVec S_ 1 := (fun x v => Host.reduce IntOp.andi x v reducesTo_S100x1_S_d0_1 h_S_) main_v36 main_c_13
  let main_v38 : IVec S_ 1 := andi main_v33 main_v37
  let main_v39 : FVec F S100x1 .f32 := Host.absf main_arg10
  let main_cst_14 : FVec F S_ .f32 := constant S_ .f32 0x7F800000#32
  let main_v40 : FVec F S100x1 .f32 := broadcastInDim S100x1 ![] bcast_S_S100x1 main_cst_14
  let main_v41 : IVec S100x1 1 := cmpf .olt main_v39 main_v40
  let main_c_15 : IVec S_ 1 := constantI S_ 1 1#1
  let main_v42 : IVec S_ 1 := (fun x v => Host.reduce IntOp.andi x v reducesTo_S100x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S100x58 .f32 := Host.absf main_arg12
  let main_cst_18 : FVec F S_ .f32 := constant S_ .f32 0x7F800000#32
  let main_v50 : FVec F S100x58 .f32 := broadcastInDim S100x58 ![] bcast_S_S100x58 main_cst_18
  fn_part3 (F := F) main_arg13 main_arg14 main_arg15 main_arg16 main_arg17 main_v48 main_v49 main_v50

def fn_part1 {F : FTy → Type} [FloatOps F] (main_arg6 : FVec F S300x100 .f32) (main_arg7 : FVec F S300x100 .f32) (main_arg8 : FVec F S100 .f32) (main_arg9 : FVec F S100x1 .f32) (main_arg10 : FVec F S100x1 .f32) (main_arg11 : FVec F S1 .f32) (main_arg12 : FVec F S100x58 .f32) (main_arg13 : FVec F S100 .f32) (main_arg14 : FVec F S100x58 .f32) (main_arg15 : FVec F S100 .f32) (main_arg16 : FVec F S1 .f32) (main_arg17 : FVec F S1 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x100 .f32 := Host.absf main_arg6
  let main_cst_6 : FVec F S_ .f32 := constant S_ .f32 0x7F800000#32
  let main_v20 : FVec F S300x100 .f32 := broadcastInDim S300x100 ![] bcast_S_S300x100 main_cst_6
  let main_v21 : IVec S300x100 1 := cmpf .olt main_v19 main_v20
  let main_c_7 : IVec S_ 1 := constantI S_ 1 1#1
  let main_v22 : IVec S_ 1 := (fun x v => Host.reduce IntOp.andi x v reducesTo_S300x100_S_d0_1 h_S_) main_v21 main_c_7
  let main_v23 : IVec S_ 1 := andi main_v18 main_v22
  let main_v24 : FVec F S300x100 .f32 := Host.absf main_arg7
  let main_cst_8 : FVec F S_ .f32 := constant S_ .f32 0x7F800000#32
  let main_v25 : FVec F S300x100 .f32 := broadcastInDim S300x100 ![] bcast_S_S300x100 main_cst_8
  let main_v26 : IVec S300x100 1 := cmpf .olt main_v24 main_v25
  let main_c_9 : IVec S_ 1 := constantI S_ 1 1#1
  let main_v27 : IVec S_ 1 := (fun x v => Host.reduce IntOp.andi x v reducesTo_S300x100_S_d0_1 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x58 .f32) (main_arg1 : IVec S2x800000 32) (main_arg2 : IVec S2x800000 32) (main_arg3 : FVec F S58x300 .f32) (main_arg4 : FVec F S58x300 .f32) (main_arg5 : FVec F S300 .f32) (main_arg6 : FVec F S300x100 .f32) (main_arg7 : FVec F S300x100 .f32) (main_arg8 : FVec F S100 .f32) (main_arg9 : FVec F S100x1 .f32) (main_arg10 : FVec F S100x1 .f32) (main_arg11 : FVec F S1 .f32) (main_arg12 : FVec F S100x58 .f32) (main_arg13 : FVec F S100 .f32) (main_arg14 : FVec F S100x58 .f32) (main_arg15 : FVec F S100 .f32) (main_arg16 : FVec F S1 .f32) (main_arg17 : FVec F S1 .f32) : IVec S_ 1 :=
  let main_v0 : FVec F S50000x58 .f32 := Host.absf main_arg0
  let main_cst : FVec F S_ .f32 := constant S_ .f32 0x7F800000#32
  let main_v1 : FVec F S50000x58 .f32 := broadcastInDim S50000x58 ![] bcast_S_S50000x58 main_cst
  let main_v2 : IVec S50000x58 1 := cmpf .olt main_v0 main_v1
  let main_c : IVec S_ 1 := constantI S_ 1 1#1
  let main_v3 : IVec S_ 1 := (fun x v => Host.reduce IntOp.andi x v reducesTo_S50000x58_S_d0_1 h_S_) main_v2 main_c
  let main_v4 : FVec F S58x300 .f32 := Host.absf main_arg3
  let main_cst_0 : FVec F S_ .f32 := constant S_ .f32 0x7F800000#32
  let main_v5 : FVec F S58x300 .f32 := broadcastInDim S58x300 ![] bcast_S_S58x300 main_cst_0
  let main_v6 : IVec S58x300 1 := cmpf .olt main_v4 main_v5
  let main_c_1 : IVec S_ 1 := constantI S_ 1 1#1
  let main_v7 : IVec S_ 1 := (fun x v => Host.reduce IntOp.andi x v reducesTo_S58x300_S_d0_1 h_S_) main_v6 main_c_1
  let main_v8 : IVec S_ 1 := andi main_v3 main_v7
  let main_v9 : FVec F S58x300 .f32 := Host.absf main_arg4
  let main_cst_2 : FVec F S_ .f32 := constant S_ .f32 0x7F800000#32
  let main_v10 : FVec F S58x300 .f32 := broadcastInDim S58x300 ![] bcast_S_S58x300 main_cst_2
  let main_v11 : IVec S58x300 1 := cmpf .olt main_v9 main_v10
  let main_c_3 : IVec S_ 1 := constantI S_ 1 1#1
  let main_v12 : IVec S_ 1 := (fun x v => Host.reduce IntOp.andi x v reducesTo_S58x300_S_d0_1 h_S_) main_v11 main_c_3
  let main_v13 : IVec S_ 1 := andi main_v8 main_v12
  let main_v14 : FVec F S300 .f32 := Host.absf main_arg5
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x58 : Shape := ⟨2, ![50000, 58]⟩
abbrev S2x800000 : Shape := ⟨2, ![2, 800000]⟩
abbrev S58x300 : Shape := ⟨2, ![58, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S100x58 : Shape := ⟨2, ![100, 58]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x58 : Shape := ⟨2, ![800000, 58]⟩
abbrev S1x300 : Shape := ⟨2, ![1, 300]⟩
abbrev S50000x300 : Shape := ⟨2, ![50000, 300]⟩
abbrev S2000x58 : Shape := ⟨2, ![2000, 58]⟩
abbrev S2000x300 : Shape := ⟨2, ![2000, 300]⟩
abbrev S800000x300 : Shape := ⟨2, ![800000, 300]⟩
abbrev S58x100 : Shape := ⟨2, ![58, 100]⟩
abbrev S1x100 : Shape := ⟨2, ![1, 100]⟩
abbrev S50000x100 : Shape := ⟨2, ![50000, 100]⟩
abbrev S2000x100 : Shape := ⟨2, ![2000, 100]⟩
abbrev S800000x100 : Shape := ⟨2, ![800000, 100]⟩
abbrev S1x1 : Shape := ⟨2, ![1, 1]⟩
abbrev S50000x1 : Shape := ⟨2, ![50000, 1]⟩
abbrev S2000x1 : Shape := ⟨2, ![2000, 1]⟩

abbrev nBuf : Space → Nat
  | .hbm => 219
  | .vmem => 35
  | .smem => 0
  | _ => 0

abbrev hbmTy0_0 (i : Nat) : BufTy := match i % 128 with
  | 0 => ⟨S50000x58, .f32⟩
  | 1 => ⟨S2x800000, .i32⟩
  | 2 => ⟨S2x800000, .i32⟩
  | 3 => ⟨S58x300, .f32⟩
  | 4 => ⟨S58x300, .f32⟩
  | 5 => ⟨S300, .f32⟩
  | 6 => ⟨S300x100, .f32⟩
  | 7 => ⟨S300x100, .f32⟩
  | 8 => ⟨S100, .f32⟩
  | 9 => ⟨S100x1, .f32⟩
  | 10 => ⟨S100x1, .f32⟩
  | 11 => ⟨S1, .f32⟩
  | 12 => ⟨S100x58, .f32⟩
  | 13 => ⟨S100, .f32⟩
  | 14 => ⟨S100x58, .f32⟩
  | 15 => ⟨S100, .f32⟩
  | 16 => ⟨S1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .i1⟩
  | 34 => ⟨S_, .f32⟩
  | 35 => ⟨S_, .f32⟩
  | 36 => ⟨S50000, .f32⟩
  | 37 => ⟨S50000, .f32⟩
  | 38 => ⟨S50000, .f32⟩
  | 39 => ⟨S_, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S800000, .f32⟩
  | 66 => ⟨S50000x58, .bf16⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x58, .bf16⟩
  | 76 => ⟨S800000x58, .f32⟩
  | 77 => ⟨S800000x1, .f32⟩
  | 78 => ⟨S800000x58, .f32⟩
  | 79 => ⟨S800000x58, .f32⟩
  | 80 => ⟨S_, .f32⟩
  | 81 => ⟨S50000x58, .f32⟩
  | 82 => ⟨S800000x1, .i32⟩
  | 83 => ⟨S50000x58, .f32⟩
  | 84 => ⟨S1x300, .f32⟩
  | 85 => ⟨S50000x300, .f32⟩
  | 86 => ⟨S50000x300, .bf16⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x300, .bf16⟩
  | 96 => ⟨S800000x300, .f32⟩
  | 97 => ⟨S800000x1, .f32⟩
  | 98 => ⟨S800000x300, .f32⟩
  | 99 => ⟨S800000x300, .f32⟩
  | 100 => ⟨S_, .f32⟩
  | 101 => ⟨S50000x300, .f32⟩
  | 102 => ⟨S800000x1, .i32⟩
  | 103 => ⟨S50000x300, .f32⟩
  | 104 => ⟨S58x100, .f32⟩
  | 105 => ⟨S58x100, .f32⟩
  | 106 => ⟨S1x100, .f32⟩
  | 107 => ⟨S1x100, .f32⟩
  | 108 => ⟨S1x100, .f32⟩
  | 109 => ⟨S50000x100, .f32⟩
  | 110 => ⟨S50000x100, .f32⟩
  | 111 => ⟨S1x800000, .i32⟩
  | 112 => ⟨S800000, .i32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x100, .f32⟩
  | 122 => ⟨S1x800000, .i32⟩
  | 123 => ⟨S800000, .i32⟩
  | 124 => ⟨S_, .i32⟩
  | 125 => ⟨S800000, .i32⟩
  | 126 => ⟨S800000, .i1⟩
  | 127 => ⟨S_, .i32⟩
  | _ => ⟨S50000x58, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x100, .f32⟩
  | 5 => ⟨S800000x100, .f32⟩
  | 6 => ⟨S_, .f32⟩
  | 7 => ⟨S800000, .f32⟩
  | 8 => ⟨S800000, .f32⟩
  | 9 => ⟨S800000, .f32⟩
  | 10 => ⟨S_, .f32⟩
  | 11 => ⟨S800000, .f32⟩
  | 12 => ⟨S800000, .f32⟩
  | 13 => ⟨S_, .f32⟩
  | 14 => ⟨S800000, .f32⟩
  | 15 => ⟨S800000, .f32⟩
  | 16 => ⟨S_, .f32⟩
  | 17 => ⟨S800000, .f32⟩
  | 18 => ⟨S800000, .f32⟩
  | 19 => ⟨S800000, .f32⟩
  | 20 => ⟨S_, .f32⟩
  | 21 => ⟨S_, .f32⟩
  | 22 => ⟨S_, .f32⟩
  | 23 => ⟨S_, .f32⟩
  | 24 => ⟨S_, .f32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x100, .f32⟩
  | 36 => ⟨S1x800000, .i32⟩
  | 37 => ⟨S800000, .i32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x100, .f32⟩
  | 47 => ⟨S800000x100, .f32⟩
  | 48 => ⟨S_, .f32⟩
  | 49 => ⟨S800000, .f32⟩
  | 50 => ⟨S800000, .f32⟩
  | 51 => ⟨S800000, .f32⟩
  | 52 => ⟨S_, .f32⟩
  | 53 => ⟨S800000, .f32⟩
  | 54 => ⟨S800000, .f32⟩
  | 55 => ⟨S_, .f32⟩
  | 56 => ⟨S800000, .f32⟩
  | 57 => ⟨S800000, .f32⟩
  | 58 => ⟨S_, .f32⟩
  | 59 => ⟨S800000, .f32⟩
  | 60 => ⟨S800000, .f32⟩
  | 61 => ⟨S_, .f32⟩
  | 62 => ⟨S800000, .f32⟩
  | 63 => ⟨S800000, .f32⟩
  | 64 => ⟨S800000, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S50000x100, .bf16⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x100, .bf16⟩
  | 81 => ⟨S800000x100, .f32⟩
  | 82 => ⟨S800000x1, .f32⟩
  | 83 => ⟨S800000x100, .f32⟩
  | 84 => ⟨S800000x100, .f32⟩
  | 85 => ⟨S_, .f32⟩
  | 86 => ⟨S50000x100, .f32⟩
  | 87 => ⟨S800000x1, .i32⟩
  | 88 => ⟨S50000x100, .f32⟩
  | 89 => ⟨S1x1, .f32⟩
  | 90 => ⟨S50000x1, .f32⟩
  | _ => ⟨S50000x58, .f32⟩

abbrev hbmTy (i : Nat) : BufTy := match i / 128 with
  | 0 => hbmTy0_0 i
  | 1 => hbmTy0_1 i
  | _ => ⟨S50000x58, .f32⟩

abbrev bufTy : (tb : Table) → Fin (tcTables nBuf tb) → BufTy
  | .hbm, ⟨i, _⟩ => hbmTy i
  | .local _ .vmem, ⟨0, _⟩ => ⟨S2000x58, .f32⟩
  | .local _ .vmem, ⟨1, _⟩ => ⟨S2000x58, .f32⟩
  | .local _ .vmem, ⟨2, _⟩ => ⟨S2000x58, .f32⟩
  | .local _ .vmem, ⟨3, _⟩ => ⟨S2000x58, .f32⟩
  | .local _ .vmem, ⟨4, _⟩ => ⟨S58x300, .f32⟩
  | .local _ .vmem, ⟨5, _⟩ => ⟨S58x300, .f32⟩
  | .local _ .vmem, ⟨6, _⟩ => ⟨S1x300, .f32⟩
  | .local _ .vmem, ⟨7, _⟩ => ⟨S2000x300, .f32⟩
  | .local _ .vmem, ⟨8, _⟩ => ⟨S2000x300, .f32⟩
  | .local _ .vmem, ⟨9, _⟩ => ⟨S2000x300, .f32⟩
  | .local _ .vmem, ⟨10, _⟩ => ⟨S2000x300, .f32⟩
  | .local _ .vmem, ⟨11, _⟩ => ⟨S2000x300, .f32⟩
  | .local _ .vmem, ⟨12, _⟩ => ⟨S2000x300, .f32⟩
  | .local _ .vmem, ⟨13, _⟩ => ⟨S2000x58, .f32⟩
  | .local _ .vmem, ⟨14, _⟩ => ⟨S2000x58, .f32⟩
  | .local _ .vmem, ⟨15, _⟩ => ⟨S300x100, .f32⟩
  | .local _ .vmem, ⟨16, _⟩ => ⟨S300x100, .f32⟩
  | .local _ .vmem, ⟨17, _⟩ => ⟨S1x100, .f32⟩
  | .local _ .vmem, ⟨18, _⟩ => ⟨S58x100, .f32⟩
  | .local _ .vmem, ⟨19, _⟩ => ⟨S1x100, .f32⟩
  | .local _ .vmem, ⟨20, _⟩ => ⟨S58x100, .f32⟩
  | .local _ .vmem, ⟨21, _⟩ => ⟨S1x100, .f32⟩
  | .local _ .vmem, ⟨22, _⟩ => ⟨S2000x100, .f32⟩
  | .local _ .vmem, ⟨23, _⟩ => ⟨S2000x100, .f32⟩
  | .local _ .vmem, ⟨24, _⟩ => ⟨S2000x100, .f32⟩
  | .local _ .vmem, ⟨25, _⟩ => ⟨S2000x100, .f32⟩
  | .local _ .vmem, ⟨26, _⟩ => ⟨S2000x100, .f32⟩
  | .local _ .vmem, ⟨27, _⟩ => ⟨S2000x100, .f32⟩
  | .local _ .vmem, ⟨28, _⟩ => ⟨S2000x100, .f32⟩
  | .local _ .vmem, ⟨29, _⟩ => ⟨S2000x100, .f32⟩
  | .local _ .vmem, ⟨30, _⟩ => ⟨S100x1, .f32⟩
  | .local _ .vmem, ⟨31, _⟩ => ⟨S100x1, .f32⟩
  | .local _ .vmem, ⟨32, _⟩ => ⟨S1x1, .f32⟩
  | .local _ .vmem, ⟨33, _⟩ => ⟨S2000x1, .f32⟩
  | .local _ .vmem, ⟨34, _⟩ => ⟨S2000x1, .f32⟩
  | _, _ => ⟨S50000x58, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v12 : Ref sig .tc := ⟨.hbm, 37, rfl⟩
abbrev main_v13 : Ref sig .tc := ⟨.hbm, 38, rfl⟩
abbrev main_cst_4 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_6 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_c_8 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_9 : Ref sig .tc := ⟨.hbm, 67, rfl⟩
abbrev main_v34 : Ref sig .tc := ⟨.hbm, 68, rfl⟩
abbrev main_v35 : Ref sig .tc := ⟨.hbm, 69, rfl⟩
abbrev main_c_10 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_11 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_12 : Ref sig .tc := ⟨.hbm, 87, rfl⟩
abbrev main_v51 : Ref sig .tc := ⟨.hbm, 88, rfl⟩
abbrev main_v52 : Ref sig .tc := ⟨.hbm, 89, rfl⟩
abbrev main_c_13 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70_0 : Ref sig .tc := ⟨.hbm, 109, rfl⟩
abbrev main_v70_1 : Ref sig .tc := ⟨.hbm, 110, rfl⟩
abbrev main_v71 : Ref sig .tc := ⟨.hbm, 111, rfl⟩
abbrev main_v72 : Ref sig .tc := ⟨.hbm, 112, rfl⟩
abbrev main_c_15 : Ref sig .tc := ⟨.hbm, 113, rfl⟩
abbrev main_v73 : Ref sig .tc := ⟨.hbm, 114, rfl⟩
abbrev main_v74 : Ref sig .tc := ⟨.hbm, 115, rfl⟩
abbrev main_c_16 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_17 : Ref sig .tc := ⟨.hbm, 124, rfl⟩
abbrev main_v82 : Ref sig .tc := ⟨.hbm, 125, rfl⟩
abbrev main_v83 : Ref sig .tc := ⟨.hbm, 126, rfl⟩
abbrev main_c_18 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_19 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_20 : Ref sig .tc := ⟨.hbm, 138, rfl⟩
abbrev main_v93 : Ref sig .tc := ⟨.hbm, 139, rfl⟩
abbrev main_v94 : Ref sig .tc := ⟨.hbm, 140, rfl⟩
abbrev main_cst_21 : Ref sig .tc := ⟨.hbm, 141, rfl⟩
abbrev main_v95 : Ref sig .tc := ⟨.hbm, 142, rfl⟩
abbrev main_v96 : Ref sig .tc := ⟨.hbm, 143, rfl⟩
abbrev main_cst_22 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_23 : Ref sig .tc := ⟨.hbm, 148, rfl⟩
abbrev main_v100 : Ref sig .tc := ⟨.hbm, 149, rfl⟩
abbrev main_cst_24 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_c_25 : Ref sig .tc := ⟨.hbm, 155, rfl⟩
abbrev main_v105 : Ref sig .tc := ⟨.hbm, 156, rfl⟩
abbrev main_v106 : Ref sig .tc := ⟨.hbm, 157, rfl⟩
abbrev main_c_26 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_c_27 : Ref sig .tc := ⟨.hbm, 166, rfl⟩
abbrev main_v114 : Ref sig .tc := ⟨.hbm, 167, rfl⟩
abbrev main_v115 : Ref sig .tc := ⟨.hbm, 168, rfl⟩
abbrev main_c_28 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_29 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_30 : Ref sig .tc := ⟨.hbm, 180, rfl⟩
abbrev main_v125 : Ref sig .tc := ⟨.hbm, 181, rfl⟩
abbrev main_v126 : Ref sig .tc := ⟨.hbm, 182, rfl⟩
abbrev main_cst_31 : Ref sig .tc := ⟨.hbm, 183, rfl⟩
abbrev main_v127 : Ref sig .tc := ⟨.hbm, 184, rfl⟩
abbrev main_v128 : Ref sig .tc := ⟨.hbm, 185, rfl⟩
abbrev main_cst_32 : Ref sig .tc := ⟨.hbm, 186, rfl⟩
abbrev main_v129 : Ref sig .tc := ⟨.hbm, 187, rfl⟩
abbrev main_v130 : Ref sig .tc := ⟨.hbm, 188, rfl⟩
abbrev main_cst_33 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_cst_34 : Ref sig .tc := ⟨.hbm, 193, rfl⟩
abbrev main_v134 : Ref sig .tc := ⟨.hbm, 194, rfl⟩
abbrev main_cst_35 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_c_36 : Ref sig .tc := ⟨.hbm, 200, rfl⟩
abbrev main_v139 : Ref sig .tc := ⟨.hbm, 201, rfl⟩
abbrev main_v140 : Ref sig .tc := ⟨.hbm, 202, rfl⟩
abbrev main_c_37 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_cst_38 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc1_sem11_0 : DmaSem sig := 24
abbrev cc1_sem11_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x58 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S58x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S58x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x58 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S300x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S300x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S58x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x100 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S58x100 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x100 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x100 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x100 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S100x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S100x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  bcast_S800000x1_S800000x58_0_1 : S800000x1.BroadcastsInDim S800000x58 (![0, 1] : Fin 2 → Fin S800000x58.rank)
  bcast_S_S50000x58 : S_.BroadcastsInDim S50000x58 (![] : Fin 0 → Fin S50000x58.rank)
  shapeCasts_S300_S1x300 : S300.ShapeCasts S1x300
  inb_S2000x58_S2000x58_0_0 : ∀ a, (![0, 0] : Fin 2 → Nat) a + S2000x58.size a ≤ S2000x58.size a
  h_S2000x58 : 0 < S2000x58.numel
  shapeCasts_S2000x58_S2000x58 : S2000x58.ShapeCasts S2000x58
  inb_S58x300_S58x300_0_0 : ∀ a, (![0, 0] : Fin 2 → Nat) a + S58x300.size a ≤ S58x300.size a
  h_S58x300 : 0 < S58x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  inb_S2000x300_S2000x300_0_0 : ∀ a, (![0, 0] : Fin 2 → Nat) a + S2000x300.size a ≤ S2000x300.size a
  h_S2000x300 : 0 < S2000x300.numel
  bcast_S800000x1_S800000x300_0_1 : S800000x1.BroadcastsInDim S800000x300 (![0, 1] : Fin 2 → Fin S800000x300.rank)
  bcast_S_S50000x300 : S_.BroadcastsInDim S50000x300 (![] : Fin 0 → Fin S50000x300.rank)
  transposes_S100x58_S58x100_1_0 : S100x58.Transposes [1, 0] S58x100
  shapeCasts_S100_S1x100 : S100.ShapeCasts S1x100
  shapeCasts_S2000x300_S2000x300 : S2000x300.ShapeCasts S2000x300
  inb_S300x100_S300x100_0_0 : ∀ a, (![0, 0] : Fin 2 → Nat) a + S300x100.size a ≤ S300x100.size a
  h_S300x100 : 0 < S300x100.numel
  inb_S58x100_S58x100_0_0 : ∀ a, (![0, 0] : Fin 2 → Nat) a + S58x100.size a ≤ S58x100.size a
  h_S58x100 : 0 < S58x100.numel
  shapeCasts_S58x100_S58x100 : S58x100.ShapeCasts S58x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2000x100 : S1x100.Broadcasts S2000x100
  inb_S2000x100_S2000x100_0_0 : ∀ a, (![0, 0] : Fin 2 → Nat) a + S2000x100.size a ≤ S2000x100.size a
  h_S2000x100 : 0 < S2000x100.numel
  reducesTo_S800000x100_S800000_d1 : S800000x100.ReducesTo [1] S800000
  h_S_ : 0 < S_.numel
  reducesTo_S800000_S_d0 : S800000.ReducesTo [0] S_
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  shapeCasts_S1_S1x1 : S1.ShapeCasts S1x1
  shapeCasts_S2000x100_S2000x100 : S2000x100.ShapeCasts S2000x100
  inb_S100x1_S100x1_0_0 : ∀ a, (![0, 0] : Fin 2 → Nat) a + S100x1.size a ≤ S100x1.size a
  h_S100x1 : 0 < S100x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x58_S800000x1_S800000x58_1_0_n_n_0_1_158_wf : GatherDims.WF S50000x58 S800000x1 S800000x58 [1] [0] [] [0] [] 1 ![1, 58]
  scatter_S50000x58_S800000x1_S800000x58_1_0_0_1_wf : ScatterDims.WF S50000x58 S800000x1 S800000x58 [1] [0] [0] 1
  dot_S2000x58_S58x300_S2000x300_1_0_0_1_n_n_wf : DotDims.WF S2000x58 S58x300 S2000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S2000x300_S300x100_S2000x100_1_0_0_1_n_n_wf : DotDims.WF S2000x300 S300x100 S2000x100 [1] [0] [0] [1] [] []
  dot_S2000x58_S58x100_S2000x100_1_0_0_1_n_n_wf : DotDims.WF S2000x58 S58x100 S2000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S2000x100_S100x1_S2000x1_1_0_0_1_n_n_wf : DotDims.WF S2000x100 S100x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x58.size a ≤ S50000x58.size a
  hwx0_0 : ∀ i : grid0.Coords, EltTy.bits .f32 = 32 ∨ (Rect.block (s := S50000x58) S2000x58.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x58.size a ≤ S50000x58.size a
  hwx0_1 : ∀ i : grid0.Coords, EltTy.bits .f32 = 32 ∨ (Rect.block (s := S50000x58) S2000x58.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S58x300.size a ≤ S58x300.size a
  hwx0_2 : ∀ i : grid0.Coords, EltTy.bits .f32 = 32 ∨ (Rect.block (s := S58x300) S58x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S58x300.size a ≤ S58x300.size a
  hwx0_3 : ∀ i : grid0.Coords, EltTy.bits .f32 = 32 ∨ (Rect.block (s := S58x300) S58x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x300.size a ≤ S50000x300.size a
  hwx0_5 : ∀ i : grid0.Coords, EltTy.bits .f32 = 32 ∨ (Rect.block (s := S50000x300) S2000x300.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S50000x300.size a
  hwx1_0 : ∀ i : grid1.Coords, EltTy.bits .f32 = 32 ∨ (Rect.block (s := S50000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x300.size a ≤ S50000x300.size a
  hwx1_1 : ∀ i : grid1.Coords, EltTy.bits .f32 = 32 ∨ (Rect.block (s := S50000x300) S2000x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x58.size a ≤ S50000x58.size a
  hwx1_2 : ∀ i : grid1.Coords, EltTy.bits .f32 = 32 ∨ (Rect.block (s := S50000x58) S2000x58.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x100.size a ≤ S300x100.size a
  hwx1_3 : ∀ i : grid1.Coords, EltTy.bits .f32 = 32 ∨ (Rect.block (s := S300x100) S300x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S300x100.size a ≤ S300x100.size a
  hwx1_4 : ∀ i : grid1.Coords, EltTy.bits .f32 = 32 ∨ (Rect.block (s := S300x100) S300x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x100.size a ≤ S1x100.size a
  hwx1_5 : ∀ i : grid1.Coords, EltTy.bits .f32 = 32 ∨ (Rect.block (s := S1x100) S1x100.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S58x100.size a ≤ S58x100.size a
  hwx1_6 : ∀ i : grid1.Coords, EltTy.bits .f32 = 32 ∨ (Rect.block (s := S58x100) S58x100.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x100.size a ≤ S1x100.size a
  hwx1_7 : ∀ i : grid1.Coords, EltTy.bits .f32 = 32 ∨ (Rect.block (s := S1x100) S1x100.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S58x100.size a ≤ S58x100.size a
  hwx1_8 : ∀ i : grid1.Coords, EltTy.bits .f32 = 32 ∨ (Rect.block (s := S58x100) S58x100.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x100.size a ≤ S1x100.size a
  hwx1_9 : ∀ i : grid1.Coords, EltTy.bits .f32 = 32 ∨ (Rect.block (s := S1x100) S1x100.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x100.size a ≤ S50000x100.size a
  hwx1_10 : ∀ i : grid1.Coords, EltTy.bits .f32 = 32 ∨ (Rect.block (s := S50000x100) S2000x100.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x100.size a ≤ S50000x100.size a
  hwx1_11 : ∀ i : grid1.Coords, EltTy.bits .f32 = 32 ∨ (Rect.block (s := S50000x100) S2000x100.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x100.size a ≤ S50000x100.size a
  hwx2_0 : ∀ i : grid2.Coords, EltTy.bits .f32 = 32 ∨ (Rect.block (s := S50000x100) S2000x100.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x100.size a ≤ S50000x100.size a
  hwx2_1 : ∀ i : grid2.Coords, EltTy.bits .f32 = 32 ∨ (Rect.block (s := S50000x100) S2000x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S100x1.size a ≤ S100x1.size a
  hwx2_2 : ∀ i : grid2.Coords, EltTy.bits .f32 = 32 ∨ (Rect.block (s := S100x1) S100x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S100x1.size a ≤ S100x1.size a
  hwx2_3 : ∀ i : grid2.Coords, EltTy.bits .f32 = 32 ∨ (Rect.block (s := S100x1) S100x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S50000x1.size a
  hwx2_5 : ∀ i : grid2.Coords, EltTy.bits .f32 = 32 ∨ (Rect.block (s := S50000x1) S2000x1.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x58_S800000x1_S800000x58_1_0_n_n_0_1_158 : GatherDims S50000x58 S800000x1 S800000x58 where
  offsetDims := [1]
  collapsedSliceDims := [0]
  operandBatchingDims := []
  startIndicesBatchingDims := []
  startIndexMap := [0]
  indexVectorDim := 1
  sliceSizes := ![1, 58]
  wf := gather_S50000x58_S800000x1_S800000x58_1_0_n_n_0_1_158_wf
def scatter_S50000x58_S800000x1_S800000x58_1_0_0_1 : ScatterDims S50000x58 S800000x1 S800000x58 where
  updateWindowDims := [1]
  insertedWindowDims := [0]
  scatterDimsToOperandDims := [0]
  indexVectorDim := 1
  wf := scatter_S50000x58_S800000x1_S800000x58_1_0_0_1_wf
def dot_S2000x58_S58x300_S2000x300_1_0_0_1_n_n : DotDims S2000x58 S58x300 S2000x300 where
  lhsContracting := [1]
  rhsContracting := [0]
  lhsNonContracting := [0]
  rhsNonContracting := [1]
  lhsBatch := []
  rhsBatch := []
  wf := dot_S2000x58_S58x300_S2000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S2000x300_S300x100_S2000x100_1_0_0_1_n_n : DotDims S2000x300 S300x100 S2000x100 where
  lhsContracting := [1]
  rhsContracting := [0]
  lhsNonContracting := [0]
  rhsNonContracting := [1]
  lhsBatch := []
  rhsBatch := []
  wf := dot_S2000x300_S300x100_S2000x100_1_0_0_1_n_n_wf
def dot_S2000x58_S58x100_S2000x100_1_0_0_1_n_n : DotDims S2000x58 S58x100 S2000x100 where
  lhsContracting := [1]
  rhsContracting := [0]
  lhsNonContracting := [0]
  rhsNonContracting := [1]
  lhsBatch := []
  rhsBatch := []
  wf := dot_S2000x58_S58x100_S2000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S2000x100_S100x1_S2000x1_1_0_0_1_n_n : DotDims S2000x100 S100x1 S2000x1 where
  lhsContracting := [1]
  rhsContracting := [0]
  lhsNonContracting := [0]
  rhsNonContracting := [1]
  lhsBatch := []
  rhsBatch := []
  wf := dot_S2000x100_S100x1_S2000x1_1_0_0_1_n_n_wf

abbrev win0_0 : Pipeline.Window sig grid0 :=
  Pipeline.Window.ofSpec (Memref.whole main_arg0) S2000x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2000x58.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S58x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S58x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S2000x300.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S2000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x58.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S300x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S300x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S1x100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v65) S58x100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v68) S1x100.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v66) S58x100.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v69) S1x100.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v70_0) S2000x100.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v70_1) S2000x100.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v70_0) S2000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v152) S2000x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S100x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S100x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v153) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v154) S2000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x58 : Shape := ⟨2, ![50000, 58]⟩
abbrev S2x800000 : Shape := ⟨2, ![2, 800000]⟩
abbrev S58x300 : Shape := ⟨2, ![58, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S100x58 : Shape := ⟨2, ![100, 58]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x58 : Shape := ⟨2, ![800000, 58]⟩
abbrev S50000x300 : Shape := ⟨2, ![50000, 300]⟩
abbrev S1x300 : Shape := ⟨2, ![1, 300]⟩
abbrev S800000x300 : Shape := ⟨2, ![800000, 300]⟩
abbrev S50000x100 : Shape := ⟨2, ![50000, 100]⟩
abbrev S1x100 : Shape := ⟨2, ![1, 100]⟩
abbrev S58x100 : Shape := ⟨2, ![58, 100]⟩
abbrev S800000x100 : Shape := ⟨2, ![800000, 100]⟩
abbrev S50000x1 : Shape := ⟨2, ![50000, 1]⟩
abbrev S1x1 : Shape := ⟨2, ![1, 1]⟩

abbrev nBuf : Space → Nat
  | .hbm => 244
  | .vmem => 0
  | .smem => 0
  | _ => 0

abbrev hbmTy0_0 (i : Nat) : BufTy := match i % 128 with
  | 0 => ⟨S50000x58, .f32⟩
  | 1 => ⟨S2x800000, .i32⟩
  | 2 => ⟨S2x800000, .i32⟩
  | 3 => ⟨S58x300, .f32⟩
  | 4 => ⟨S58x300, .f32⟩
  | 5 => ⟨S300, .f32⟩
  | 6 => ⟨S300x100, .f32⟩
  | 7 => ⟨S300x100, .f32⟩
  | 8 => ⟨S100, .f32⟩
  | 9 => ⟨S100x1, .f32⟩
  | 10 => ⟨S100x1, .f32⟩
  | 11 => ⟨S1, .f32⟩
  | 12 => ⟨S100x58, .f32⟩
  | 13 => ⟨S100, .f32⟩
  | 14 => ⟨S100x58, .f32⟩
  | 15 => ⟨S100, .f32⟩
  | 16 => ⟨S1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .i1⟩
  | 34 => ⟨S_, .f32⟩
  | 35 => ⟨S_, .f32⟩
  | 36 => ⟨S50000, .f32⟩
  | 37 => ⟨S50000, .f32⟩
  | 38 => ⟨S50000, .f32⟩
  | 39 => ⟨S_, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S800000, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x58, .f32⟩
  | 75 => ⟨S800000x1, .f32⟩
  | 76 => ⟨S800000x58, .f32⟩
  | 77 => ⟨S800000x58, .f32⟩
  | 78 => ⟨S_, .f32⟩
  | 79 => ⟨S50000x58, .f32⟩
  | 80 => ⟨S800000x1, .i32⟩
  | 81 => ⟨S50000x58, .f32⟩
  | 82 => ⟨S50000x300, .f32⟩
  | 83 => ⟨S50000x300, .f32⟩
  | 84 => ⟨S50000x300, .f32⟩
  | 85 => ⟨S1x300, .f32⟩
  | 86 => ⟨S50000x300, .f32⟩
  | 87 => ⟨S50000x300, .f32⟩
  | 88 => ⟨S_, .f32⟩
  | 89 => ⟨S50000x300, .f32⟩
  | 90 => ⟨S50000x300, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x300, .f32⟩
  | 100 => ⟨S800000x1, .f32⟩
  | 101 => ⟨S800000x300, .f32⟩
  | 102 => ⟨S800000x300, .f32⟩
  | 103 => ⟨S_, .f32⟩
  | 104 => ⟨S50000x300, .f32⟩
  | 105 => ⟨S800000x1, .i32⟩
  | 106 => ⟨S50000x300, .f32⟩
  | 107 => ⟨S50000x100, .f32⟩
  | 108 => ⟨S50000x100, .f32⟩
  | 109 => ⟨S50000x100, .f32⟩
  | 110 => ⟨S1x100, .f32⟩
  | 111 => ⟨S50000x100, .f32⟩
  | 112 => ⟨S50000x100, .f32⟩
  | 113 => ⟨S_, .f32⟩
  | 114 => ⟨S50000x100, .f32⟩
  | 115 => ⟨S50000x100, .f32⟩
  | 116 => ⟨S58x100, .f32⟩
  | 117 => ⟨S50000x100, .f32⟩
  | 118 => ⟨S1x100, .f32⟩
  | 119 => ⟨S50000x100, .f32⟩
  | 120 => ⟨S50000x100, .f32⟩
  | 121 => ⟨S_, .f32⟩
  | 122 => ⟨S50000x100, .f32⟩
  | 123 => ⟨S50000x100, .f32⟩
  | 124 => ⟨S50000x100, .f32⟩
  | 125 => ⟨S58x100, .f32⟩
  | 126 => ⟨S50000x100, .f32⟩
  | 127 => ⟨S1x100, .f32⟩
  | _ => ⟨S50000x58, .f32⟩

abbrev hbmTy0_1 (i : Nat) : BufTy := match i % 128 with
  | 0 => ⟨S50000x100, .f32⟩
  | 1 => ⟨S50000x100, .f32⟩
  | 2 => ⟨S_, .f32⟩
  | 3 => ⟨S50000x100, .f32⟩
  | 4 => ⟨S50000x100, .f32⟩
  | 5 => ⟨S50000x100, .f32⟩
  | 6 => ⟨S1x800000, .i32⟩
  | 7 => ⟨S800000, .i32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x100, .f32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x100, .f32⟩
  | 28 => ⟨S800000x100, .f32⟩
  | 29 => ⟨S_, .f32⟩
  | 30 => ⟨S800000, .f32⟩
  | 31 => ⟨S800000, .f32⟩
  | 32 => ⟨S800000, .f32⟩
  | 33 => ⟨S_, .f32⟩
  | 34 => ⟨S800000, .f32⟩
  | 35 => ⟨S800000, .f32⟩
  | 36 => ⟨S_, .f32⟩
  | 37 => ⟨S800000, .f32⟩
  | 38 => ⟨S800000, .f32⟩
  | 39 => ⟨S_, .f32⟩
  | 40 => ⟨S800000, .f32⟩
  | 41 => ⟨S800000, .f32⟩
  | 42 => ⟨S800000, .f32⟩
  | 43 => ⟨S_, .f32⟩
  | 44 => ⟨S_, .f32⟩
  | 45 => ⟨S_, .f32⟩
  | 46 => ⟨S_, .f32⟩
  | 47 => ⟨S_, .f32⟩
  | 48 => ⟨S1x800000, .i32⟩
  | 49 => ⟨S800000, .i32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x100, .f32⟩
  | 59 => ⟨S1x800000, .i32⟩
  | 60 => ⟨S800000, .i32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x100, .f32⟩
  | 70 => ⟨S800000x100, .f32⟩
  | 71 => ⟨S_, .f32⟩
  | 72 => ⟨S800000, .f32⟩
  | 73 => ⟨S800000, .f32⟩
  | 74 => ⟨S800000, .f32⟩
  | 75 => ⟨S_, .f32⟩
  | 76 => ⟨S800000, .f32⟩
  | 77 => ⟨S800000, .f32⟩
  | 78 => ⟨S_, .f32⟩
  | 79 => ⟨S800000, .f32⟩
  | 80 => ⟨S800000, .f32⟩
  | 81 => ⟨S_, .f32⟩
  | 82 => ⟨S800000, .f32⟩
  | 83 => ⟨S800000, .f32⟩
  | 84 => ⟨S_, .f32⟩
  | 85 => ⟨S800000, .f32⟩
  | 86 => ⟨S800000, .f32⟩
  | 87 => ⟨S800000, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x100, .f32⟩
  | 103 => ⟨S800000x1, .f32⟩
  | 104 => ⟨S800000x100, .f32⟩
  | 105 => ⟨S800000x100, .f32⟩
  | 106 => ⟨S_, .f32⟩
  | 107 => ⟨S50000x100, .f32⟩
  | 108 => ⟨S800000x1, .i32⟩
  | 109 => ⟨S50000x100, .f32⟩
  | 110 => ⟨S50000x1, .f32⟩
  | 111 => ⟨S50000x1, .f32⟩
  | 112 => ⟨S50000x1, .f32⟩
  | 113 => ⟨S1x1, .f32⟩
  | 114 => ⟨S50000x1, .f32⟩
  | 115 => ⟨S50000x1, .f32⟩
  | _ => ⟨S50000x58, .f32⟩

abbrev hbmTy (i : Nat) : BufTy := match i / 128 with
  | 0 => hbmTy0_0 i
  | 1 => hbmTy0_1 i
  | _ => ⟨S50000x58, .f32⟩

abbrev bufTy : (tb : Table) → Fin (tcTables nBuf tb) → BufTy
  | .hbm, ⟨i, _⟩ => hbmTy i
  | _, _ => ⟨S50000x58, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v12 : Ref sig .tc := ⟨.hbm, 37, rfl⟩
abbrev main_v13 : Ref sig .tc := ⟨.hbm, 38, rfl⟩
abbrev main_cst_4 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_6 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_c_8 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_9 : Ref sig .tc := ⟨.hbm, 66, rfl⟩
abbrev main_v33 : Ref sig .tc := ⟨.hbm, 67, rfl⟩
abbrev main_v34 : Ref sig .tc := ⟨.hbm, 68, rfl⟩
abbrev main_c_10 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_11 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_cst : Ref sig .tc := ⟨.hbm, 88, rfl⟩
abbrev main_call2_v0 : Ref sig .tc := ⟨.hbm, 89, rfl⟩
abbrev main_v52 : Ref sig .tc := ⟨.hbm, 90, rfl⟩
abbrev main_c_12 : Ref sig .tc := ⟨.hbm, 91, rfl⟩
abbrev main_v53 : Ref sig .tc := ⟨.hbm, 92, rfl⟩
abbrev main_v54 : Ref sig .tc := ⟨.hbm, 93, rfl⟩
abbrev main_c_13 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_14 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_call3_cst : Ref sig .tc := ⟨.hbm, 113, rfl⟩
abbrev main_call3_v0 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_call4_cst : Ref sig .tc := ⟨.hbm, 121, rfl⟩
abbrev main_call4_v0 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_call5_cst : Ref sig .tc := ⟨.hbm, 130, rfl⟩
abbrev main_call5_v0 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_15 : Ref sig .tc := ⟨.hbm, 136, rfl⟩
abbrev main_v89 : Ref sig .tc := ⟨.hbm, 137, rfl⟩
abbrev main_v90 : Ref sig .tc := ⟨.hbm, 138, rfl⟩
abbrev main_c_16 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_17 : Ref sig .tc := ⟨.hbm, 147, rfl⟩
abbrev main_v98 : Ref sig .tc := ⟨.hbm, 148, rfl⟩
abbrev main_v99 : Ref sig .tc := ⟨.hbm, 149, rfl⟩
abbrev main_c_18 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_19 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_20 : Ref sig .tc := ⟨.hbm, 161, rfl⟩
abbrev main_v109 : Ref sig .tc := ⟨.hbm, 162, rfl⟩
abbrev main_v110 : Ref sig .tc := ⟨.hbm, 163, rfl⟩
abbrev main_cst_21 : Ref sig .tc := ⟨.hbm, 164, rfl⟩
abbrev main_v111 : Ref sig .tc := ⟨.hbm, 165, rfl⟩
abbrev main_v112 : Ref sig .tc := ⟨.hbm, 166, rfl⟩
abbrev main_cst_22 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_23 : Ref sig .tc := ⟨.hbm, 171, rfl⟩
abbrev main_v116 : Ref sig .tc := ⟨.hbm, 172, rfl⟩
abbrev main_cst_24 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_c_25 : Ref sig .tc := ⟨.hbm, 178, rfl⟩
abbrev main_v121 : Ref sig .tc := ⟨.hbm, 179, rfl⟩
abbrev main_v122 : Ref sig .tc := ⟨.hbm, 180, rfl⟩
abbrev main_c_26 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_c_27 : Ref sig .tc := ⟨.hbm, 189, rfl⟩
abbrev main_v130 : Ref sig .tc := ⟨.hbm, 190, rfl⟩
abbrev main_v131 : Ref sig .tc := ⟨.hbm, 191, rfl⟩
abbrev main_c_28 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_cst_29 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_cst_30 : Ref sig .tc := ⟨.hbm, 203, rfl⟩
abbrev main_v141 : Ref sig .tc := ⟨.hbm, 204, rfl⟩
abbrev main_v142 : Ref sig .tc := ⟨.hbm, 205, rfl⟩
abbrev main_cst_31 : Ref sig .tc := ⟨.hbm, 206, rfl⟩
abbrev main_v143 : Ref sig .tc := ⟨.hbm, 207, rfl⟩
abbrev main_v144 : Ref sig .tc := ⟨.hbm, 208, rfl⟩
abbrev main_cst_32 : Ref sig .tc := ⟨.hbm, 209, rfl⟩
abbrev main_v145 : Ref sig .tc := ⟨.hbm, 210, rfl⟩
abbrev main_v146 : Ref sig .tc := ⟨.hbm, 211, rfl⟩
abbrev main_cst_33 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_cst_34 : Ref sig .tc := ⟨.hbm, 216, rfl⟩
abbrev main_v150 : Ref sig .tc := ⟨.hbm, 217, rfl⟩
abbrev main_cst_35 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_c_36 : Ref sig .tc := ⟨.hbm, 222, rfl⟩
abbrev main_v154 : Ref sig .tc := ⟨.hbm, 223, rfl⟩
abbrev main_v155 : Ref sig .tc := ⟨.hbm, 224, rfl⟩
abbrev main_c_37 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_38 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x58_0_1 : S800000x1.BroadcastsInDim S800000x58 (![0, 1] : Fin 2 → Fin S800000x58.rank)
  bcast_S_S50000x58 : S_.BroadcastsInDim S50000x58 (![] : Fin 0 → Fin S50000x58.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  bcast_S800000x1_S800000x300_0_1 : S800000x1.BroadcastsInDim S800000x300 (![0, 1] : Fin 2 → Fin S800000x300.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  transposes_S100x58_S58x100_1_0 : S100x58.Transposes [1, 0] S58x100
  reducesTo_S800000x100_S800000_d1 : S800000x100.ReducesTo [1] S800000
  h_S_ : 0 < S_.numel
  reducesTo_S800000_S_d0 : S800000.ReducesTo [0] S_
  bcast_S800000x1_S800000x100_0_1 : S800000x1.BroadcastsInDim S800000x100 (![0, 1] : Fin 2 → Fin S800000x100.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x58_S800000x1_S800000x58_1_0_n_n_0_1_158_wf : GatherDims.WF S50000x58 S800000x1 S800000x58 [1] [0] [] [0] [] 1 ![1, 58]
  scatter_S50000x58_S800000x1_S800000x58_1_0_0_1_wf : ScatterDims.WF S50000x58 S800000x1 S800000x58 [1] [0] [0] 1
  dot_S50000x58_S58x300_S50000x300_1_0_0_1_n_n_wf : DotDims.WF S50000x58 S58x300 S50000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S50000x300_S300x100_S50000x100_1_0_0_1_n_n_wf : DotDims.WF S50000x300 S300x100 S50000x100 [1] [0] [0] [1] [] []
  dot_S50000x58_S58x100_S50000x100_1_0_0_1_n_n_wf : DotDims.WF S50000x58 S58x100 S50000x100 [1] [0] [0] [1] [] []
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x1_S50000x1_1_0_0_1_n_n_wf : DotDims.WF S50000x100 S100x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x58_S800000x1_S800000x58_1_0_n_n_0_1_158 : GatherDims S50000x58 S800000x1 S800000x58 where
  offsetDims := [1]
  collapsedSliceDims := [0]
  operandBatchingDims := []
  startIndicesBatchingDims := []
  startIndexMap := [0]
  indexVectorDim := 1
  sliceSizes := ![1, 58]
  wf := gather_S50000x58_S800000x1_S800000x58_1_0_n_n_0_1_158_wf
def scatter_S50000x58_S800000x1_S800000x58_1_0_0_1 : ScatterDims S50000x58 S800000x1 S800000x58 where
  updateWindowDims := [1]
  insertedWindowDims := [0]
  scatterDimsToOperandDims := [0]
  indexVectorDim := 1
  wf := scatter_S50000x58_S800000x1_S800000x58_1_0_0_1_wf
def dot_S50000x58_S58x300_S50000x300_1_0_0_1_n_n : DotDims S50000x58 S58x300 S50000x300 where
  lhsContracting := [1]
  rhsContracting := [0]
  lhsNonContracting := [0]
  rhsNonContracting := [1]
  lhsBatch := []
  rhsBatch := []
  wf := dot_S50000x58_S58x300_S50000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S50000x300_S300x100_S50000x100_1_0_0_1_n_n : DotDims S50000x300 S300x100 S50000x100 where
  lhsContracting := [1]
  rhsContracting := [0]
  lhsNonContracting := [0]
  rhsNonContracting := [1]
  lhsBatch := []
  rhsBatch := []
  wf := dot_S50000x300_S300x100_S50000x100_1_0_0_1_n_n_wf
def dot_S50000x58_S58x100_S50000x100_1_0_0_1_n_n : DotDims S50000x58 S58x100 S50000x100 where
  lhsContracting := [1]
  rhsContracting := [0]
  lhsNonContracting := [0]
  rhsNonContracting := [1]
  lhsBatch := []
  rhsBatch := []
  wf := dot_S50000x58_S58x100_S50000x100_1_0_0_1_n_n_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x1_S50000x1_1_0_0_1_n_n : DotDims S50000x100 S100x1 S50000x1 where
  lhsContracting := [1]
  rhsContracting := [0]
  lhsNonContracting := [0]
  rhsNonContracting := [1]
  lhsBatch := []
  rhsBatch := []
  wf := dot_S50000x100_S100x1_S50000x1_1_0_0_1_n_n_wf

class Facts : Prop extends Facts₀ where

variable [Facts]
-- ==== Proof.KernelRun.lean ====
/-
  The idealized kernel's run with its final memory named.

  The program is three kernel regions among stretches of host operations. Running it from a launch memory `m` walks
  the buffer contents through eleven boundaries: the launch contents, the contents after each host stretch, and the
  contents after each region (the region's arrays at what its write-backs leave, every other buffer as it was). This
  module states that every weakly fair execution terminates in a memory that holds, at every unscoped buffer, the
  contents at the last boundary; the arguments are then as launched, and the two computed results are the last
  boundary's contents at their buffers.
-/
import proofs.«144274_j9294309229063_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every final memory holds the last boundary's contents
    at every unscoped buffer of every core. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The same run with the two computed results named at the last boundary's contents and the arguments as launched. -/
theorem run_results : θ_run defs (onTc (τ := τ) (main (F := F))) ⟨m, fun _ => 0, ρ⟩ (fun r => ∀ c : Dev nD,
      (r.2.mem ((c.tc : Thread nD τ).loc main_v154) = W10 m ρ c (Proc.devRef .tc main_v154)
      ∧ r.2.mem ((c.tc : Thread nD τ).loc main_v137) = W10 m ρ c (Proc.devRef .tc main_v137))
      ∧ ∀ b : Ref sig .tc, ¬ (Proc.devRef .tc b : DevRef τ sig).isScoped →
          r.2.mem ((c.tc : Thread nD τ).loc b) = W10 m ρ c (Proc.devRef .tc b)) :=
  (θ_run defs _ _).mono (fun r h c =>
    ⟨⟨h c _ (mem_uc main_v154 (by decide)), h c _ (mem_uc main_v137 (by decide))⟩,
     fun b hb => h c _ (mem_uc b hb)⟩) (run_last m ρ)

end Cert.KernelIdeal.RunValue

end
-- ==== Proof.HostA.lean ====
/-
  The idealized kernel's buffers when its first region is entered and when it is left.

  Before the first region the host computes, from the edge list alone, the source and destination index vectors, the node
  degrees (a scatter-add of ones at the sources), their inverse square roots (one where the degree is zero is replaced by
  zero, through two selections) and the edge weights (minus the product of the two endpoints' inverse roots); and from the
  features and the edge list the propagated features: each edge's source row, scaled by the edge's weight, summed into the
  edge's destination row. These are the operations the reference applies, in the same order; the kernel's program also
  rounds the gathered features to a narrower float format and back, which on the extended reals is the identity. So each
  buffer holds the reference's stage of the same name, as a function of the launch contents of the arguments. The facts
  are read one stretch of host operations at a time, each over the facts of the stretch before. The first region then
  writes only its output array: every other buffer leaves it as it entered.
-/
import proofs.«144274_j9294309229063_2_alg».proof.Proof.Gen.KernelIdeal.Frame
import proofs.«144274_j9294309229063_2_alg».proof.Proof.RefReadPatched
import Idealize.ShloMosaic.Lib.StableHlo.Run
import Idealize.ShloMosaic.Lib.ValueLayout

set_option maxRecDepth 16384
set_option pp.maxSteps 5000
set_option pp.deepTerms false

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The degrees and their inverse roots, stretch by stretch -/

/-- The node degrees. -/
theorem W1_v7 (c : Dev nD) : W1 (F := Ideal) m ρ c (Proc.devRef .tc main_v7) = Cert.ReferenceIdeal.ReadP.val_main_v7 (F := Ideal) (m ((c : Thread nD τ).loc main_arg1)) := by
  dsimp only [W1, W0, hostOps0]
  after_results_simp <;> rfl

/-- Which degrees are positive (read by the first selection). -/
theorem W1_v11 (c : Dev nD) : W1 (F := Ideal) m ρ c (Proc.devRef .tc main_v11) = Cert.ReferenceIdeal.ReadP.val_main_v11 (F := Ideal) (m ((c : Thread nD τ).loc main_arg1)) := by
  dsimp only [W1, W0, hostOps0]
  after_results_simp <;> rfl

/-- The constant one the first selection falls back to. -/
theorem W1_cst_3 (c : Dev nD) : W1 (F := Ideal) m ρ c (Proc.devRef .tc main_cst_3) = Cert.ReferenceIdeal.ReadP.val_main_cst_3 (F := Ideal) := by
  dsimp only [W1, W0, hostOps0]
  after_results_simp <;> rfl
/-- The degrees with every zero replaced by one. -/
theorem W2_v12 (c : Dev nD) : W2 (F := Ideal) m ρ c (Proc.devRef .tc main_v12) = Cert.ReferenceIdeal.ReadP.val_main_v12 (F := Ideal) (m ((c : Thread nD τ).loc main_arg1)) := by
  have e0 := W1_v11 m ρ c
  have e1 := W1_v7 m ρ c
  have e2 := W1_cst_3 m ρ c
  show StableHlo.after hostOps0_1 (W1 m ρ c) _ = _
  generalize W1 (F := Ideal) m ρ c = V at e0 e1 e2 ⊢
  dsimp only [hostOps0_1]
  after_results_simp
  simp only [Cert.ReferenceIdeal.ReadP.val_main_v12, Cert.ReferenceIdeal.ReadP.val_main_call0_v1, Cert.ReferenceIdeal.ReadP.val_main_call0_v0, ← e0, ← e1, ← e2]
  rfl

theorem W2_v9 (c : Dev nD) : W2 (F := Ideal) m ρ c (Proc.devRef .tc main_v9) = Cert.ReferenceIdeal.ReadP.val_main_v9 (F := Ideal) (m ((c : Thread nD τ).loc main_arg1)) := by
  dsimp only [W2, W1, W0, hostOps0_1, hostOps0]
  after_results_simp <;> rfl

/-- One over the square root of those. -/
theorem W3_v15 (c : Dev nD) : W3 (F := Ideal) m ρ c (Proc.devRef .tc main_v15) = Cert.ReferenceIdeal.ReadP.val_main_v15 (F := Ideal) (m ((c : Thread nD τ).loc main_arg1)) := by
  have e0 := W2_v12 m ρ c
  show StableHlo.after hostOps0_2 (W2 m ρ c) _ = _
  generalize W2 (F := Ideal) m ρ c = V at e0 ⊢
  dsimp only [hostOps0_2]
  after_results_simp
  rw [e0]
  rfl

theorem W3_v9 (c : Dev nD) : W3 (F := Ideal) m ρ c (Proc.devRef .tc main_v9) = Cert.ReferenceIdeal.ReadP.val_main_v9 (F := Ideal) (m ((c : Thread nD τ).loc main_arg1)) := by
  dsimp only [W3, W2, W1, W0, hostOps0_2, hostOps0_1, hostOps0]
  after_results_simp <;> rfl

theorem W3_cst_5 (c : Dev nD) : W3 (F := Ideal) m ρ c (Proc.devRef .tc main_cst_5) = Cert.ReferenceIdeal.ReadP.val_main_cst_5 (F := Ideal) := by
  dsimp only [W3, W2, W1, W0, hostOps0_2, hostOps0_1, hostOps0]
  after_results_simp <;> rfl
/-- The inverse root degrees, zero where the degree is zero. -/
theorem W4_v16 (c : Dev nD) : W4 (F := Ideal) m ρ c (Proc.devRef .tc main_v16) = Cert.ReferenceIdeal.ReadP.val_main_v16 (F := Ideal) (m ((c : Thread nD τ).loc main_arg1)) := by
  have e0 := W3_v9 m ρ c
  have e1 := W3_v15 m ρ c
  have e2 := W3_cst_5 m ρ c
  show StableHlo.after hostOps0_3 (W3 m ρ c) _ = _
  generalize W3 (F := Ideal) m ρ c = V at e0 e1 e2 ⊢
  dsimp only [hostOps0_3]
  after_results_simp
  simp only [Cert.ReferenceIdeal.ReadP.val_main_v16, Cert.ReferenceIdeal.ReadP.val_main_call1_v1, Cert.ReferenceIdeal.ReadP.val_main_call1_v0, ← e0, ← e1, ← e2]
  rfl

theorem W4_v1 (c : Dev nD) : W4 (F := Ideal) m ρ c (Proc.devRef .tc main_v1) = Cert.ReferenceIdeal.ReadP.val_main_v1 (F := Ideal) (m ((c : Thread nD τ).loc main_arg1)) := by
  dsimp only [W4, W3, W2, W1, W0, hostOps0_3, hostOps0_2, hostOps0_1, hostOps0]
  after_results_simp <;> rfl

theorem W4_v3 (c : Dev nD) : W4 (F := Ideal) m ρ c (Proc.devRef .tc main_v3) = Cert.ReferenceIdeal.ReadP.val_main_v3 (F := Ideal) (m ((c : Thread nD τ).loc main_arg1)) := by
  dsimp only [W4, W3, W2, W1, W0, hostOps0_3, hostOps0_2, hostOps0_1, hostOps0]
  after_results_simp <;> rfl

theorem W4_arg0 (c : Dev nD) : W4 (F := Ideal) m ρ c (Proc.devRef .tc main_arg0) = (m ((c : Thread nD τ).loc main_arg0)) := by
  dsimp only [W4, W3, W2, W1, W0, hostOps0_3, hostOps0_2, hostOps0_1, hostOps0]
  after_results_simp <;> rfl

/-! ## At the first region's entry -/

theorem W5_arg0 (c : Dev nD) : W5 (F := Ideal) m ρ c (Proc.devRef .tc main_arg0) = (m ((c : Thread nD τ).loc main_arg0)) := by
  dsimp only [W5, W4, W3, W2, W1, W0, hostOps0_4, hostOps0_3, hostOps0_2, hostOps0_1, hostOps0]
  after_results_simp <;> rfl

theorem W5_arg1 (c : Dev nD) : W5 (F := Ideal) m ρ c (Proc.devRef .tc main_arg1) = (m ((c : Thread nD τ).loc main_arg1)) := by
  dsimp only [W5, W4, W3, W2, W1, W0, hostOps0_4, hostOps0_3, hostOps0_2, hostOps0_1, hostOps0]
  after_results_simp <;> rfl

theorem W5_arg2 (c : Dev nD) : W5 (F := Ideal) m ρ c (Proc.devRef .tc main_arg2) = (m ((c : Thread nD τ).loc main_arg2)) := by
  dsimp only [W5, W4, W3, W2, W1, W0, hostOps0_4, hostOps0_3, hostOps0_2, hostOps0_1, hostOps0]
  after_results_simp <;> rfl

theorem W5_arg3 (c : Dev nD) : W5 (F := Ideal) m ρ c (Proc.devRef .tc main_arg3) = (m ((c : Thread nD τ).loc main_arg3)) := by
  dsimp only [W5, W4, W3, W2, W1, W0, hostOps0_4, hostOps0_3, hostOps0_2, hostOps0_1, hostOps0]
  after_results_simp <;> rfl

theorem W5_arg4 (c : Dev nD) : W5 (F := Ideal) m ρ c (Proc.devRef .tc main_arg4) = (m ((c : Thread nD τ).loc main_arg4)) := by
  dsimp only [W5, W4, W3, W2, W1, W0, hostOps0_4, hostOps0_3, hostOps0_2, hostOps0_1, hostOps0]
  after_results_simp <;> rfl

theorem W5_arg5 (c : Dev nD) : W5 (F := Ideal) m ρ c (Proc.devRef .tc main_arg5) = (m ((c : Thread nD τ).loc main_arg5)) := by
  dsimp only [W5, W4, W3, W2, W1, W0, hostOps0_4, hostOps0_3, hostOps0_2, hostOps0_1, hostOps0]
  after_results_simp <;> rfl

theorem W5_arg6 (c : Dev nD) : W5 (F := Ideal) m ρ c (Proc.devRef .tc main_arg6) = (m ((c : Thread nD τ).loc main_arg6)) := by
  dsimp only [W5, W4, W3, W2, W1, W0, hostOps0_4, hostOps0_3, hostOps0_2, hostOps0_1, hostOps0]
  after_results_simp <;> rfl

theorem W5_arg7 (c : Dev nD) : W5 (F := Ideal) m ρ c (Proc.devRef .tc main_arg7) = (m ((c : Thread nD τ).loc main_arg7)) := by
  dsimp only [W5, W4, W3, W2, W1, W0, hostOps0_4, hostOps0_3, hostOps0_2, hostOps0_1, hostOps0]
  after_results_simp <;> rfl

theorem W5_arg8 (c : Dev nD) : W5 (F := Ideal) m ρ c (Proc.devRef .tc main_arg8) = (m ((c : Thread nD τ).loc main_arg8)) := by
  dsimp only [W5, W4, W3, W2, W1, W0, hostOps0_4, hostOps0_3, hostOps0_2, hostOps0_1, hostOps0]
  after_results_simp <;> rfl

theorem W5_arg9 (c : Dev nD) : W5 (F := Ideal) m ρ c (Proc.devRef .tc main_arg9) = (m ((c : Thread nD τ).loc main_arg9)) := by
  dsimp only [W5, W4, W3, W2, W1, W0, hostOps0_4, hostOps0_3, hostOps0_2, hostOps0_1, hostOps0]
  after_results_simp <;> rfl

theorem W5_arg10 (c : Dev nD) : W5 (F := Ideal) m ρ c (Proc.devRef .tc main_arg10) = (m ((c : Thread nD τ).loc main_arg10)) := by
  dsimp only [W5, W4, W3, W2, W1, W0, hostOps0_4, hostOps0_3, hostOps0_2, hostOps0_1, hostOps0]
  after_results_simp <;> rfl

theorem W5_arg11 (c : Dev nD) : W5 (F := Ideal) m ρ c (Proc.devRef .tc main_arg11) = (m ((c : Thread nD τ).loc main_arg11)) := by
  dsimp only [W5, W4, W3, W2, W1, W0, hostOps0_4, hostOps0_3, hostOps0_2, hostOps0_1, hostOps0]
  after_results_simp <;> rfl

theorem W5_arg12 (c : Dev nD) : W5 (F := Ideal) m ρ c (Proc.devRef .tc main_arg12) = (m ((c : Thread nD τ).loc main_arg12)) := by
  dsimp only [W5, W4, W3, W2, W1, W0, hostOps0_4, hostOps0_3, hostOps0_2, hostOps0_1, hostOps0]
  after_results_simp <;> rfl

theorem W5_arg13 (c : Dev nD) : W5 (F := Ideal) m ρ c (Proc.devRef .tc main_arg13) = (m ((c : Thread nD τ).loc main_arg13)) := by
  dsimp only [W5, W4, W3, W2, W1, W0, hostOps0_4, hostOps0_3, hostOps0_2, hostOps0_1, hostOps0]
  after_results_simp <;> rfl

theorem W5_arg14 (c : Dev nD) : W5 (F := Ideal) m ρ c (Proc.devRef .tc main_arg14) = (m ((c : Thread nD τ).loc main_arg14)) := by
  dsimp only [W5, W4, W3, W2, W1, W0, hostOps0_4, hostOps0_3, hostOps0_2, hostOps0_1, hostOps0]
  after_results_simp <;> rfl

theorem W5_arg15 (c : Dev nD) : W5 (F := Ideal) m ρ c (Proc.devRef .tc main_arg15) = (m ((c : Thread nD τ).loc main_arg15)) := by
  dsimp only [W5, W4, W3, W2, W1, W0, hostOps0_4, hostOps0_3, hostOps0_2, hostOps0_1, hostOps0]
  after_results_simp <;> rfl

/-- The source index of every edge. -/
theorem W5_v1 (c : Dev nD) : W5 (F := Ideal) m ρ c (Proc.devRef .tc main_v1) = Cert.ReferenceIdeal.ReadP.val_main_v1 (F := Ideal) (m ((c : Thread nD τ).loc main_arg1)) := by
  dsimp only [W5, W4, W3, W2, W1, W0, hostOps0_4, hostOps0_3, hostOps0_2, hostOps0_1, hostOps0]
  after_results_simp <;> rfl

/-- The destination index of every edge. -/
theorem W5_v3 (c : Dev nD) : W5 (F := Ideal) m ρ c (Proc.devRef .tc main_v3) = Cert.ReferenceIdeal.ReadP.val_main_v3 (F := Ideal) (m ((c : Thread nD τ).loc main_arg1)) := by
  dsimp only [W5, W4, W3, W2, W1, W0, hostOps0_4, hostOps0_3, hostOps0_2, hostOps0_1, hostOps0]
  after_results_simp <;> rfl

/-- The weight of every edge. -/
theorem W5_v32 (c : Dev nD) : W5 (F := Ideal) m ρ c (Proc.devRef .tc main_v32) = Cert.ReferenceIdeal.ReadP.val_main_v32 (F := Ideal) (m ((c : Thread nD τ).loc main_arg1)) := by
  have e0 := W4_v16 m ρ c
  have e1 := W4_v1 m ρ c
  have e2 := W4_v3 m ρ c
  show StableHlo.after hostOps0_4 (W4 m ρ c) _ = _
  generalize W4 (F := Ideal) m ρ c = V at e0 e1 e2 ⊢
  dsimp only [hostOps0_4]
  after_results_simp
  rw [e0, e1, e2]
  rfl

/-- The propagated input features. -/
theorem W5_v47 (c : Dev nD) : W5 (F := Ideal) m ρ c (Proc.devRef .tc main_v47) = Cert.ReferenceIdeal.ReadP.val_main_v45 (F := Ideal) (m ((c : Thread nD τ).loc main_arg0)) (m ((c : Thread nD τ).loc main_arg1)) := by
  have e0 := W4_v16 m ρ c
  have e1 := W4_v1 m ρ c
  have e2 := W4_v3 m ρ c
  have e3 := W4_arg0 m ρ c
  show StableHlo.after hostOps0_4 (W4 m ρ c) _ = _
  generalize W4 (F := Ideal) m ρ c = V at e0 e1 e2 e3 ⊢
  dsimp only [hostOps0_4]
  after_results_simp
  rw [e0, e1, e2, e3]
  rfl

/-- The first layer's bias, recast from a vector to a one-row matrix: entry `(0, q)` is the vector's entry `q`. -/
theorem W5_v48 (c : Dev nD) (q : Fin 300) :
    (W5 (F := Ideal) m ρ c (Proc.devRef .tc main_v48) : S1x300.Idx → EReal) (ix2 (0 : Fin 1) q) = ((m ((c : Thread nD τ).loc main_arg5)) : S300.Idx → EReal) (ix1 q) := by
  dsimp only [W5, W4, W3, W2, W1, W0, hostOps0_4, hostOps0_3, hostOps0_2, hostOps0_1, hostOps0]
  after_results_simp
  exact shapeCast_a_1a_apply (a := 300) _ _ (0 : Fin 1) q

/-! ## At the first region's exit: what it does not write -/

/-- The features are the region's first input window: its array ends as it was entered. -/
theorem W6_arg0 (c : Dev nD) : W6 (F := Ideal) m ρ c (Proc.devRef .tc main_arg0) = (m ((c : Thread nD τ).loc main_arg0)) :=
  ((W6_arr m ρ c 0).trans (((dat0 (V5 m ρ) c).arrAt_in 0 rfl _).trans (A_eq0 (V5 m ρ) c 0))).trans (W5_arg0 m ρ c)

theorem W6_arg1 (c : Dev nD) : W6 (F := Ideal) m ρ c (Proc.devRef .tc main_arg1) = (m ((c : Thread nD τ).loc main_arg1)) :=
  (W6_of_ne m ρ c main_arg1 (by decide)).trans (W5_arg1 m ρ c)

theorem W6_arg2 (c : Dev nD) : W6 (F := Ideal) m ρ c (Proc.devRef .tc main_arg2) = (m ((c : Thread nD τ).loc main_arg2)) :=
  (W6_of_ne m ρ c main_arg2 (by decide)).trans (W5_arg2 m ρ c)

theorem W6_arg6 (c : Dev nD) : W6 (F := Ideal) m ρ c (Proc.devRef .tc main_arg6) = (m ((c : Thread nD τ).loc main_arg6)) :=
  (W6_of_ne m ρ c main_arg6 (by decide)).trans (W5_arg6 m ρ c)

theorem W6_arg7 (c : Dev nD) : W6 (F := Ideal) m ρ c (Proc.devRef .tc main_arg7) = (m ((c : Thread nD τ).loc main_arg7)) :=
  (W6_of_ne m ρ c main_arg7 (by decide)).trans (W5_arg7 m ρ c)

theorem W6_arg8 (c : Dev nD) : W6 (F := Ideal) m ρ c (Proc.devRef .tc main_arg8) = (m ((c : Thread nD τ).loc main_arg8)) :=
  (W6_of_ne m ρ c main_arg8 (by decide)).trans (W5_arg8 m ρ c)

theorem W6_arg9 (c : Dev nD) : W6 (F := Ideal) m ρ c (Proc.devRef .tc main_arg9) = (m ((c : Thread nD τ).loc main_arg9)) :=
  (W6_of_ne m ρ c main_arg9 (by decide)).trans (W5_arg9 m ρ c)

theorem W6_arg10 (c : Dev nD) : W6 (F := Ideal) m ρ c (Proc.devRef .tc main_arg10) = (m ((c : Thread nD τ).loc main_arg10)) :=
  (W6_of_ne m ρ c main_arg10 (by decide)).trans (W5_arg10 m ρ c)

theorem W6_arg11 (c : Dev nD) : W6 (F := Ideal) m ρ c (Proc.devRef .tc main_arg11) = (m ((c : Thread nD τ).loc main_arg11)) :=
  (W6_of_ne m ρ c main_arg11 (by decide)).trans (W5_arg11 m ρ c)

theorem W6_arg12 (c : Dev nD) : W6 (F := Ideal) m ρ c (Proc.devRef .tc main_arg12) = (m ((c : Thread nD τ).loc main_arg12)) :=
  (W6_of_ne m ρ c main_arg12 (by decide)).trans (W5_arg12 m ρ c)

theorem W6_arg13 (c : Dev nD) : W6 (F := Ideal) m ρ c (Proc.devRef .tc main_arg13) = (m ((c : Thread nD τ).loc main_arg13)) :=
  (W6_of_ne m ρ c main_arg13 (by decide)).trans (W5_arg13 m ρ c)

theorem W6_arg14 (c : Dev nD) : W6 (F := Ideal) m ρ c (Proc.devRef .tc main_arg14) = (m ((c : Thread nD τ).loc main_arg14)) :=
  (W6_of_ne m ρ c main_arg14 (by decide)).trans (W5_arg14 m ρ c)

theorem W6_arg15 (c : Dev nD) : W6 (F := Ideal) m ρ c (Proc.devRef .tc main_arg15) = (m ((c : Thread nD τ).loc main_arg15)) :=
  (W6_of_ne m ρ c main_arg15 (by decide)).trans (W5_arg15 m ρ c)

theorem W6_v1 (c : Dev nD) : W6 (F := Ideal) m ρ c (Proc.devRef .tc main_v1) = Cert.ReferenceIdeal.ReadP.val_main_v1 (F := Ideal) (m ((c : Thread nD τ).loc main_arg1)) :=
  (W6_of_ne m ρ c main_v1 (by decide)).trans (W5_v1 m ρ c)

theorem W6_v3 (c : Dev nD) : W6 (F := Ideal) m ρ c (Proc.devRef .tc main_v3) = Cert.ReferenceIdeal.ReadP.val_main_v3 (F := Ideal) (m ((c : Thread nD τ).loc main_arg1)) :=
  (W6_of_ne m ρ c main_v3 (by decide)).trans (W5_v3 m ρ c)

theorem W6_v32 (c : Dev nD) : W6 (F := Ideal) m ρ c (Proc.devRef .tc main_v32) = Cert.ReferenceIdeal.ReadP.val_main_v32 (F := Ideal) (m ((c : Thread nD τ).loc main_arg1)) :=
  (W6_of_ne m ρ c main_v32 (by decide)).trans (W5_v32 m ρ c)

end Cert.KernelIdeal.HostValue

end
-- ==== Proof.Spec.lean ====
/-
  The dense stages of the network, entry by entry, on the extended reals.

  Each layer of the network is an affine map of the rows of its input: the features and the neighbourhood-propagated
  features are each multiplied by a weight matrix, the two products are added, and a bias row is added to every row.
  Entry `(p, q)` of the result is therefore
      (∑ k, x (p, k) · w₀ (k, q)  +  ∑ k, t (p, k) · w₁ (k, q))  +  b q
  with the additions in exactly this order. The first layer clamps it below at zero; the second layer does the same and
  then adds a clamped one-matrix affine map of the raw features; the third layer is the bare two-matrix map.
  Both programs compute these entries; nothing here depends on a program.
-/
import Idealize.ShloMosaic.PureOps.Ideal
import Idealize.ShloMosaic.Lib.ValueIdx

namespace Gnn

open Idealize.ShloMosaic Idealize.ShloMosaic.ValueIdx

variable {M K K' N : ℕ}

/-- Entry `(p, q)` of `x·w₀ + t·w₁ + b`: the two contractions added first, the bias last. -/
noncomputable def affine2At (x t : (⟨2, ![M, K]⟩ : Shape).Idx → EReal) (w0 w1 : (⟨2, ![K, N]⟩ : Shape).Idx → EReal)
    (b : Fin N → EReal) (p : Fin M) (q : Fin N) : EReal :=
  ((∑ k : Fin K, x (ix2 p k) * w0 (ix2 k q)) + ∑ k : Fin K, t (ix2 p k) * w1 (ix2 k q)) + b q

/-- Entry `(p, q)` of `x·w + b`. -/
noncomputable def affine1At (x : (⟨2, ![M, K]⟩ : Shape).Idx → EReal) (w : (⟨2, ![K, N]⟩ : Shape).Idx → EReal)
    (b : Fin N → EReal) (p : Fin M) (q : Fin N) : EReal :=
  (∑ k : Fin K, x (ix2 p k) * w (ix2 k q)) + b q

/-- The first layer: the two-matrix affine map clamped below at zero. -/
noncomputable def denseRelu (x t : (⟨2, ![M, K]⟩ : Shape).Idx → EReal) (w0 w1 : (⟨2, ![K, N]⟩ : Shape).Idx → EReal)
    (b : Fin N → EReal) : (⟨2, ![M, N]⟩ : Shape).Idx → EReal :=
  fun j => max (affine2At x t w0 w1 b (j 0) (j 1)) 0

/-- The second layer with one of its two side branches: the clamped two-matrix map of the hidden features plus the
    clamped one-matrix map of the raw features. -/
noncomputable def combine (h t : (⟨2, ![M, K]⟩ : Shape).Idx → EReal) (w0 w1 : (⟨2, ![K, N]⟩ : Shape).Idx → EReal)
    (b : Fin N → EReal) (x : (⟨2, ![M, K']⟩ : Shape).Idx → EReal) (lw : (⟨2, ![K', N]⟩ : Shape).Idx → EReal)
    (lb : Fin N → EReal) : (⟨2, ![M, N]⟩ : Shape).Idx → EReal :=
  fun j => max (affine2At h t w0 w1 b (j 0) (j 1)) 0 + max (affine1At x lw lb (j 0) (j 1)) 0

/-- The third layer: the bare two-matrix affine map. -/
noncomputable def dense (x t : (⟨2, ![M, K]⟩ : Shape).Idx → EReal) (w0 w1 : (⟨2, ![K, N]⟩ : Shape).Idx → EReal)
    (b : Fin N → EReal) : (⟨2, ![M, N]⟩ : Shape).Idx → EReal :=
  fun j => affine2At x t w0 w1 b (j 0) (j 1)

theorem denseRelu_apply (x t : (⟨2, ![M, K]⟩ : Shape).Idx → EReal) (w0 w1 : (⟨2, ![K, N]⟩ : Shape).Idx → EReal)
    (b : Fin N → EReal) (p : Fin M) (q : Fin N) :
    denseRelu x t w0 w1 b (ix2 p q) = max (affine2At x t w0 w1 b p q) 0 := rfl

theorem combine_apply (h t : (⟨2, ![M, K]⟩ : Shape).Idx → EReal) (w0 w1 : (⟨2, ![K, N]⟩ : Shape).Idx → EReal)
    (b : Fin N → EReal) (x : (⟨2, ![M, K']⟩ : Shape).Idx → EReal) (lw : (⟨2, ![K', N]⟩ : Shape).Idx → EReal)
    (lb : Fin N → EReal) (p : Fin M) (q : Fin N) :
    combine h t w0 w1 b x lw lb (ix2 p q) = max (affine2At h t w0 w1 b p q) 0 + max (affine1At x lw lb p q) 0 := rfl

theorem dense_apply (x t : (⟨2, ![M, K]⟩ : Shape).Idx → EReal) (w0 w1 : (⟨2, ![K, N]⟩ : Shape).Idx → EReal)
    (b : Fin N → EReal) (p : Fin M) (q : Fin N) :
    dense x t w0 w1 b (ix2 p q) = affine2At x t w0 w1 b p q := rfl

end Gnn
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.Region0.lean ====
/-
  The first layer of the network, as a whole array.

  The first call works on the 50000 rows of the feature matrix in 25 blocks of 2000 rows. At every block it multiplies the
  block of features and the block of propagated features each by its own 58 x 300 weight matrix (the matrix unit
  accumulating into zero, after a narrowing of the operands that is the identity on the extended reals), adds the two
  products, adds the bias row to every row and clamps the sum below at zero. Entry (p, q) of a block is therefore
      max ((sum_k x (p, k) * w0 (k, q) + sum_k t (p, k) * w1 (k, q)) + b q) 0
  of the block's rows. Row p of block t is row 2000 t + p of the array, the weights and the bias are read whole at every
  block, and the 25 blocks tile the 50000 rows: so the output array ends holding the clamped affine map of the whole
  input arrays, entry by entry.
-/
import proofs.«144274_j9294309229063_2_alg».proof.Proof.Gen.KernelIdeal.Frame
import proofs.«144274_j9294309229063_2_alg».proof.Proof.Spec
import proofs.«144274_j9294309229063_2_alg».proof.Proof.LibPlainDot
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Region0

open Cert.KernelIdeal Cert.KernelIdeal.Gen Idealize.ShloMosaic Idealize.ShloMosaic.ValueIdx Idealize.ShloMosaic.TcCoe
open Idealize.ShloMosaic.Pipeline (Dat)

/-! ## The body's arithmetic at an entry -/

/-- One product of the body: the matrix unit accumulating into zero, both operands narrowed first (the identity on the
    extended reals), read at entry `(p, q)`, is the contraction over the 58 shared coordinates. -/
theorem product_entry (x : Vec Ideal S2000x58 .f32) (w : Vec Ideal S58x300 .f32) (p : Fin 2000) (q : Fin 300) :
    matmul (F := Ideal) dot_S2000x58_S58x300_S2000x300_1_0_0_1_n_n none
        (truncf .bf16 x bitsLt_bf16_f32) (truncf .bf16 w bitsLt_bf16_f32)
        (constant (F := Ideal) S2000x300 .f32 0x00000000#32) (ix2 p q)
      = ∑ k : Fin 58, x (ix2 p k) * w (ix2 k q) :=
  Gcn.Lib.plain_matmul_zero_apply (M := 2000) (K := 58) (N := 300) (φ₁ := .bf16) (φ₂ := .bf16)
    (truncf .bf16 x bitsLt_bf16_f32) (truncf .bf16 w bitsLt_bf16_f32) none p q

/-- The bias row, recast to its own shape and broadcast down the 2000 rows, reads at `(p, q)` the row's entry `q`. -/
theorem bias_entry (b : Vec Ideal S1x300 .f32) (p : Fin 2000) (q : Fin 300) :
    broadcastTo S2000x300 (shapeCast S1x300 b shapeCasts_S1x300_S1x300) broadcasts_S1x300_S2000x300 (ix2 p q)
      = b (ix2 (0 : Fin 1) q) := by
  rw [shapeCast_self]
  exact broadcastTo_1b_ab_apply (a := 2000) (b := 300) b broadcasts_S1x300_S2000x300 p q

set_option maxHeartbeats 200000 in
/-- The body's stored value at entry `(p, q)`: the two contractions added, the bias added, clamped below at zero. -/
theorem body_entry (x0 x1 : Vec Ideal S2000x58 .f32) (w0 w1 : Vec Ideal S58x300 .f32) (b : Vec Ideal S1x300 .f32)
    (p : Fin 2000) (q : Fin 300) :
    k0_pay1 (F := Ideal) x0 x1 w0 w1 b (ix2 p q)
      = max (Gnn.affine2At (M := 2000) (K := 58) (N := 300) x0 x1 w0 w1 (fun q => b (ix2 (0 : Fin 1) q)) p q) 0 := by
  unfold k0_pay1 Gnn.affine2At
  dsimp only
  rw [maximumf_apply, addf_apply, addf_apply, broadcast_apply, shapeCast_self, product_entry, product_entry, bias_entry]
  exact congrArg (max _) Ideal.ofBits_zero_f32

/-! ## Blocks as parts of the arrays -/

theorem zero_offsets : (![0, 0] : Fin 2 → Nat) = fun _ => 0 := funext fun a => by fin_cases a <;> rfl

/-- The windows' index maps, decided once over the 25 grid points: the two row-blocked inputs and the output sit at block
    `(t, 0)`, the two weight matrices and the bias row at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row `p` of the feature block at point `t` is row `2000 t + p` of the feature matrix. -/
theorem features_block (c : Dev nD) (t : Fin cfg0.N) (p : Fin 2000) (k : Fin 58) (r : Fin 50000)
    (hr : r.val = 2000 * t.val + p.val) :
    (iblk0 (F := Ideal) V c 0 t : Vec Ideal S2000x58 .f32) (ix2 p k) = (V c main_arg0 : S50000x58.Idx → EReal) (ix2 r k) := by
  obtain ⟨e0, e1, -⟩ := index_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 58 + 1 * k.val = k.val; omega

/-- Row `p` of the propagated-feature block at point `t` is row `2000 t + p` of the propagated features. -/
theorem propagated_block (c : Dev nD) (t : Fin cfg0.N) (p : Fin 2000) (k : Fin 58) (r : Fin 50000)
    (hr : r.val = 2000 * t.val + p.val) :
    (iblk0 (F := Ideal) V c 1 t : Vec Ideal S2000x58 .f32) (ix2 p k) = (V c main_v47 : S50000x58.Idx → EReal) (ix2 r k) := by
  obtain ⟨-, -, e0, e1, -⟩ := index_facts t
  show V c main_v47 (((cfg0.win 1).blk t).view.emb (ix2 p k)) = V c main_v47 (ix2 r k)
  refine congrArg (V c main_v47) (funext fun a => Fin.ext ?_)
  match a with
  | ⟨0, _⟩ => show win0_1.index t (0 : Fin 2) * 2000 + 1 * p.val = r.val; omega
  | ⟨1, _⟩ => show win0_1.index t (1 : Fin 2) * 58 + 1 * k.val = k.val; omega

/-- The first weight matrix is staged whole at every point. -/
theorem weight0_block (c : Dev nD) (t : Fin cfg0.N) (k : Fin 58) (q : Fin 300) :
    (iblk0 (F := Ideal) V c 2 t : Vec Ideal S58x300 .f32) (ix2 k q) = (V c main_arg3 : S58x300.Idx → EReal) (ix2 k q) := by
  obtain ⟨-, -, -, -, e0, e1, -⟩ := index_facts t
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 58 + 1 * k.val = k.val; omega
  | ⟨1, _⟩ => show win0_2.index t (1 : Fin 2) * 300 + 1 * q.val = q.val; omega

/-- The second weight matrix is staged whole at every point. -/
theorem weight1_block (c : Dev nD) (t : Fin cfg0.N) (k : Fin 58) (q : Fin 300) :
    (iblk0 (F := Ideal) V c 3 t : Vec Ideal S58x300 .f32) (ix2 k q) = (V c main_arg4 : S58x300.Idx → EReal) (ix2 k q) := by
  obtain ⟨-, -, -, -, -, -, e0, e1, -⟩ := index_facts t
  show V c main_arg4 (((cfg0.win 3).blk t).view.emb (ix2 k q)) = V c main_arg4 (ix2 k q)
  refine congrArg (V c main_arg4) (funext fun a => Fin.ext ?_)
  match a with
  | ⟨0, _⟩ => show win0_3.index t (0 : Fin 2) * 58 + 1 * k.val = k.val; omega
  | ⟨1, _⟩ => show win0_3.index t (1 : Fin 2) * 300 + 1 * q.val = q.val; omega

/-- The bias row is staged whole at every point. -/
theorem bias_block (c : Dev nD) (t : Fin cfg0.N) (q : Fin 300) :
    (iblk0 (F := Ideal) V c 4 t : Vec Ideal S1x300 .f32) (ix2 (0 : Fin 1) q) = (V c main_v48 : S1x300.Idx → EReal) (ix2 (0 : Fin 1) q) := by
  obtain ⟨-, -, -, -, -, -, -, -, e0, e1, -⟩ := index_facts t
  show V c main_v48 (((cfg0.win 4).blk t).view.emb (ix2 (0 : Fin 1) q)) = V c main_v48 (ix2 (0 : Fin 1) q)
  refine congrArg (V c main_v48) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 300 + 1 * q.val = q.val; omega

/-- Entry `(p, q)` of the output block at point `t` sits at `(2000 t + p, q)` of the output array. -/
theorem output_place (t : Fin cfg0.N) (p : Fin 2000) (q : Fin 300) (r : Fin 50000) (hr : r.val = 2000 * t.val + p.val) :
    ((cfg0.win 5).blk t).view.emb (ix2 p q) = (ix2 r q : S50000x300.Idx) := by
  obtain ⟨-, -, -, -, -, -, -, -, -, -, e0, e1⟩ := index_facts t
  refine funext fun a => Fin.ext ?_
  match a with
  | ⟨0, _⟩ => show win0_5.index t (0 : Fin 2) * 2000 + 1 * p.val = r.val; omega
  | ⟨1, _⟩ => show win0_5.index t (1 : Fin 2) * 300 + 1 * q.val = q.val; omega

/-! ## What a point writes back, and the whole array -/

/-- The two-matrix affine map depends on its arguments only through the entries it reads. -/
theorem affine2At_congr {M M' K N : ℕ} (x t : (⟨2, ![M, K]⟩ : Shape).Idx → EReal) (x' t' : (⟨2, ![M', K]⟩ : Shape).Idx → EReal)
    (w0 w1 w0' w1' : (⟨2, ![K, N]⟩ : Shape).Idx → EReal) (b b' : Fin N → EReal) (p : Fin M) (p' : Fin M') (q : Fin N)
    (hx : ∀ k, x (ix2 p k) = x' (ix2 p' k)) (ht : ∀ k, t (ix2 p k) = t' (ix2 p' k))
    (h0 : ∀ k, w0 (ix2 k q) = w0' (ix2 k q)) (h1 : ∀ k, w1 (ix2 k q) = w1' (ix2 k q)) (hb : b q = b' q) :
    Gnn.affine2At x t w0 w1 b p q = Gnn.affine2At x' t' w0' w1' b' p' q := by
  unfold Gnn.affine2At
  simp only [hx, ht, h0, h1, hb]

/-- The first layer of the whole arrays as the region finds them. -/
abbrev layer (c : Dev nD) : S50000x300.Idx → EReal :=
  Gnn.denseRelu (M := 50000) (K := 58) (N := 300) (V c main_arg0) (V c main_v47) (V c main_arg3) (V c main_arg4)
    (fun q => V c main_v48 (ix2 (0 : Fin 1) q))

set_option maxHeartbeats 400000 in
/-- What point `t` writes back is block `t` of the first layer of the whole arrays. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero zero_offsets]
  simp only [View.ld_unit_zero (S := S2000x58) zero_offsets, View.ld_unit_zero (S := S58x300) zero_offsets,
    View.ld_unit_zero (S := S1x300) zero_offsets]
  refine funext fun (j : S2000x300.Idx) => ?_
  obtain ⟨p, q, rfl⟩ : ∃ (p : Fin 2000) (q : Fin 300), j = ix2 p q := ⟨j 0, j 1, eq_ix2 j⟩
  have hN : cfg0.N = 25 := N_0
  have hr : 2000 * t.val + p.val < 50000 := by have := t.isLt; omega
  show k0_pay1 (F := Ideal) (iblk0 V c 0 t) (iblk0 V c 1 t) (iblk0 V c 2 t) (iblk0 V c 3 t) (iblk0 V c 4 t) (ix2 p q)
    = layer V c (((cfg0.win 5).blk t).view.emb (ix2 p q))
  rw [output_place t p q ⟨2000 * t.val + p.val, hr⟩ rfl]
  refine (body_entry (iblk0 V c 0 t) (iblk0 V c 1 t) (iblk0 V c 2 t) (iblk0 V c 3 t) (iblk0 V c 4 t) p q).trans ?_
  refine (congrArg (fun z : EReal => max z 0) ?_).trans (Gnn.denseRelu_apply _ _ _ _ _ _ q).symm
  exact affine2At_congr _ _ _ _ _ _ _ _ _ _ p ⟨2000 * t.val + p.val, hr⟩ q
    (fun k => features_block V c t p k _ rfl) (fun k => propagated_block V c t p k _ rfl)
    (fun k => weight0_block V c t k q) (fun k => weight1_block V c t k q) (bias_block V c t q)

/-- An index of the output array is in point `t`'s block iff each coordinate is in the block's range on its axis. -/
theorem mem_blk (t : Fin cfg0.N) (i : S50000x300.Idx) :
    i ∈ ((cfg0.win 5).blk t).view.set ↔ ∀ a : Fin 2, win0_5.index t a * S2000x300.size a ≤ (i a).val ∧ (i a).val < win0_5.index t a * S2000x300.size a + S2000x300.size a := by
  show i ∈ ((View.whole main_v49).slice (win0_5.rect t)).set ↔ _
  rw [View.set_slice_whole, Rect.mem_set_unit]
  exact Iff.rfl

/-- Every entry of the output array is written: row `r` lies in the block of point `r / 2000`. -/
theorem cover (i : S50000x300.Idx) :
    ∃ t : Fin cfg0.N, (cfg0.win 5).flush t = true ∧ i ∈ ((cfg0.win 5).blk t).view.set := by
  have hi0 : (i 0).val < 50000 := (i 0).isLt
  have hi1 : (i 1).val < 300 := (i 1).isLt
  have hN : cfg0.N = 25 := N_0
  have ht : (i 0).val / 2000 < cfg0.N := by rw [hN]; omega
  obtain ⟨-, -, -, -, -, -, -, -, -, -, e0, e1⟩ := index_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 300 ≤ (i 1).val
      ∧ (i 1).val < win0_5.index ⟨(i 0).val / 2000, ht⟩ (1 : Fin 2) * 300 + 300
    omega

/-- THE OUTPUT ARRAY after the first call: the first layer of the whole input arrays, entry by entry. -/
theorem arr (c : Dev nD) :
    (dat0 (F := Ideal) V c).arrAt 5 cfg0.N
      = Gnn.denseRelu (M := 50000) (K := 58) (N := 300) (V c main_arg0) (V c main_v47) (V c main_arg3) (V c main_arg4)
          (fun q => V c main_v48 (ix2 (0 : Fin 1) q)) :=
  (dat0 V c).arrAt_eq_of_cover 5 (layer V c) (fun t _ => flushed_eq V c t) cover

end Cert.KernelIdeal.Region0

end
-- ==== Proof.RefDense.lean ====
/-
  The reference's dense stages are the specification's affine maps.

  Each dense layer of the reference is a handful of host operations: two matrix products (the layer's input and the
  neighbourhood-propagated input, each against its weight matrix), their sum, the bias vector turned into a row and
  repeated over every row, a second sum, and (for the first two layers) a maximum against a zero array. Read at the
  entry `(p, q)`, each product is the sum over the contracted coordinate, the repeated bias is the bias at `q`, the
  zero array is `0`, and the operations compose to exactly the specification's entry, with the additions in the same
  order. The second layer's side branch is one more product (against a transposed weight matrix, carried as it is), a
  bias and a clamp, added to the clamped main branch. The propagated inputs (each the result of a scatter) and the
  earlier layers are carried as opaque arrays throughout: only the operations of the layer at hand are read.
-/
import proofs.«144274_j9294309229063_2_alg».proof.Proof.RefReadPatched
import proofs.«144274_j9294309229063_2_alg».proof.Proof.Spec

namespace Cert.ReferenceIdeal.RefDense

open Cert.ReferenceIdeal Cert.ReferenceIdeal.Gen Cert.ReferenceIdeal.ReadP Idealize.ShloMosaic Idealize.ShloMosaic.ValueIdx

/-! ## Where each operation reads its operands

  Entry `(p, q)` of a product reads the left operand at `(p, k)` and the right operand at `(k, q)`; the bias
  repeated over the rows reads, at `(p, q)`, the bias at `q`. -/

theorem lidx46 (p : Fin 50000) (q : Fin 300) (k : Fin 58) : lidx_main_v46 (ix2 p q) k = ix2 p k :=
  funext fun a => Fin.ext (by match a with | ⟨0, _⟩ => rfl | ⟨1, _⟩ => rfl)
theorem ridx46 (p : Fin 50000) (q : Fin 300) (k : Fin 58) : ridx_main_v46 (ix2 p q) k = ix2 k q :=
  funext fun a => Fin.ext (by match a with | ⟨0, _⟩ => rfl | ⟨1, _⟩ => rfl)
theorem lidx47 (p : Fin 50000) (q : Fin 300) (k : Fin 58) : lidx_main_v47 (ix2 p q) k = ix2 p k :=
  funext fun a => Fin.ext (by match a with | ⟨0, _⟩ => rfl | ⟨1, _⟩ => rfl)
theorem ridx47 (p : Fin 50000) (q : Fin 300) (k : Fin 58) : ridx_main_v47 (ix2 p q) k = ix2 k q :=
  funext fun a => Fin.ext (by match a with | ⟨0, _⟩ => rfl | ⟨1, _⟩ => rfl)
theorem bidx50 (p : Fin 50000) (q : Fin 300) : idx_main_v49 (idx_main_v50 (ix2 p q)) = ix1 q :=
  funext fun a => Fin.ext (by match a with | ⟨0, _⟩ => rfl)

theorem lidx66 (p : Fin 50000) (q : Fin 100) (k : Fin 300) : lidx_main_v66 (ix2 p q) k = ix2 p k :=
  funext fun a => Fin.ext (by match a with | ⟨0, _⟩ => rfl | ⟨1, _⟩ => rfl)
theorem ridx66 (p : Fin 50000) (q : Fin 100) (k : Fin 300) : ridx_main_v66 (ix2 p q) k = ix2 k q :=
  funext fun a => Fin.ext (by match a with | ⟨0, _⟩ => rfl | ⟨1, _⟩ => rfl)
theorem lidx67 (p : Fin 50000) (q : Fin 100) (k : Fin 300) : lidx_main_v67 (ix2 p q) k = ix2 p k :=
  funext fun a => Fin.ext (by match a with | ⟨0, _⟩ => rfl | ⟨1, _⟩ => rfl)
theorem ridx67 (p : Fin 50000) (q : Fin 100) (k : Fin 300) : ridx_main_v67 (ix2 p q) k = ix2 k q :=
  funext fun a => Fin.ext (by match a with | ⟨0, _⟩ => rfl | ⟨1, _⟩ => rfl)
theorem bidx70 (p : Fin 50000) (q : Fin 100) : idx_main_v69 (idx_main_v70 (ix2 p q)) = ix1 q :=
  funext fun a => Fin.ext (by match a with | ⟨0, _⟩ => rfl)
theorem lidx74 (p : Fin 50000) (q : Fin 100) (k : Fin 58) : lidx_main_v74 (ix2 p q) k = ix2 p k :=
  funext fun a => Fin.ext (by match a with | ⟨0, _⟩ => rfl | ⟨1, _⟩ => rfl)
theorem ridx74 (p : Fin 50000) (q : Fin 100) (k : Fin 58) : ridx_main_v74 (ix2 p q) k = ix2 k q :=
  funext fun a => Fin.ext (by match a with | ⟨0, _⟩ => rfl | ⟨1, _⟩ => rfl)
theorem bidx76 (p : Fin 50000) (q : Fin 100) : idx_main_v75 (idx_main_v76 (ix2 p q)) = ix1 q :=
  funext fun a => Fin.ext (by match a with | ⟨0, _⟩ => rfl)
theorem lidx81 (p : Fin 50000) (q : Fin 100) (k : Fin 58) : lidx_main_v81 (ix2 p q) k = ix2 p k :=
  funext fun a => Fin.ext (by match a with | ⟨0, _⟩ => rfl | ⟨1, _⟩ => rfl)
theorem ridx81 (p : Fin 50000) (q : Fin 100) (k : Fin 58) : ridx_main_v81 (ix2 p q) k = ix2 k q :=
  funext fun a => Fin.ext (by match a with | ⟨0, _⟩ => rfl | ⟨1, _⟩ => rfl)
theorem bidx83 (p : Fin 50000) (q : Fin 100) : idx_main_v82 (idx_main_v83 (ix2 p q)) = ix1 q :=
  funext fun a => Fin.ext (by match a with | ⟨0, _⟩ => rfl)

theorem lidx167 (p : Fin 50000) (q : Fin 1) (k : Fin 100) : lidx_main_v167 (ix2 p q) k = ix2 p k :=
  funext fun a => Fin.ext (by match a with | ⟨0, _⟩ => rfl | ⟨1, _⟩ => rfl)
theorem ridx167 (p : Fin 50000) (q : Fin 1) (k : Fin 100) : ridx_main_v167 (ix2 p q) k = ix2 k q :=
  funext fun a => Fin.ext (by match a with | ⟨0, _⟩ => rfl | ⟨1, _⟩ => rfl)
theorem lidx168 (p : Fin 50000) (q : Fin 1) (k : Fin 100) : lidx_main_v168 (ix2 p q) k = ix2 p k :=
  funext fun a => Fin.ext (by match a with | ⟨0, _⟩ => rfl | ⟨1, _⟩ => rfl)
theorem ridx168 (p : Fin 50000) (q : Fin 1) (k : Fin 100) : ridx_main_v168 (ix2 p q) k = ix2 k q :=
  funext fun a => Fin.ext (by match a with | ⟨0, _⟩ => rfl | ⟨1, _⟩ => rfl)
/-- A one-entry bias: the only column is column `0`. -/
theorem bidx171 (p : Fin 50000) (q : Fin 1) : idx_main_v170 (idx_main_v171 (ix2 p q)) = ix1 q :=
  funext fun a => Fin.ext (by match a with | ⟨0, _⟩ => exact (Fin.val_eq_zero q).symm)

/-! ## The first layer -/

/-- The first layer of the reference is the clamped two-matrix affine map of the features and the propagated
    features. -/
theorem h_eq (x0 : (⟨S50000x58, .f32⟩ : BufTy).Contents (Elt Ideal)) (x1 : (⟨S2x800000, .i32⟩ : BufTy).Contents (Elt Ideal))
    (x3 x4 : (⟨S58x300, .f32⟩ : BufTy).Contents (Elt Ideal)) (x5 : (⟨S300, .f32⟩ : BufTy).Contents (Elt Ideal)) :
    val_main_v52 (F := Ideal) x0 x1 x3 x4 x5
      = Gnn.denseRelu (M := 50000) (K := 58) (N := 300) x0 (val_main_v45 (F := Ideal) x0 x1) x3 x4 (fun q => x5 (ix1 q)) := by
  funext j
  obtain ⟨p, q, rfl⟩ : ∃ (p : Fin 50000) (q : Fin 300), j = ix2 p q := ⟨j 0, j 1, eq_ix2 j⟩
  rw [val_main_v52_apply, val_main_v51_apply, val_main_v48_apply, val_main_v46_apply, val_main_v47_apply,
    val_main_v50_apply, val_main_v49_apply, val_main_call2_v0_apply, val_main_call2_cst_apply]
  generalize val_main_v45 (F := Ideal) x0 x1 = t
  simp only [lidx46, ridx46, lidx47, ridx47, bidx50, Gnn.denseRelu_apply, Gnn.affine2At, Ideal.maximumf_def,
    Ideal.addf_def, Ideal.ofBits_def, Ideal.ofBits_zero_f32]

/-! ## The second layer with either side branch -/

/-- The second layer's clamped main branch plus the clamped first side branch (the features against the first side
    weight matrix, transposed). -/
theorem xm_eq (x0 : (⟨S50000x58, .f32⟩ : BufTy).Contents (Elt Ideal)) (x1 : (⟨S2x800000, .i32⟩ : BufTy).Contents (Elt Ideal))
    (x3 x4 : (⟨S58x300, .f32⟩ : BufTy).Contents (Elt Ideal)) (x5 : (⟨S300, .f32⟩ : BufTy).Contents (Elt Ideal))
    (x6 x7 : (⟨S300x100, .f32⟩ : BufTy).Contents (Elt Ideal)) (x8 : (⟨S100, .f32⟩ : BufTy).Contents (Elt Ideal))
    (x12 : (⟨S100x58, .f32⟩ : BufTy).Contents (Elt Ideal)) (x13 : (⟨S100, .f32⟩ : BufTy).Contents (Elt Ideal)) :
    val_main_v79 (F := Ideal) x0 x1 x3 x4 x5 x6 x7 x8 x12 x13
      = Gnn.combine (M := 50000) (K := 300) (K' := 58) (N := 100) (val_main_v52 (F := Ideal) x0 x1 x3 x4 x5)
          (val_main_v65 (F := Ideal) x0 x1 x3 x4 x5) x6 x7 (fun q => x8 (ix1 q)) x0 (val_main_v73 (F := Ideal) x12)
          (fun q => x13 (ix1 q)) := by
  funext j
  obtain ⟨p, q, rfl⟩ : ∃ (p : Fin 50000) (q : Fin 100), j = ix2 p q := ⟨j 0, j 1, eq_ix2 j⟩
  rw [val_main_v79_apply, val_main_v72_apply, val_main_v71_apply, val_main_v68_apply, val_main_v66_apply,
    val_main_v67_apply, val_main_v70_apply, val_main_v69_apply, val_main_call3_v0_apply, val_main_call3_cst_apply,
    val_main_v78_apply, val_main_v77_apply, val_main_v74_apply, val_main_v76_apply, val_main_v75_apply,
    val_main_call4_v0_apply, val_main_call4_cst_apply]
  generalize val_main_v52 (F := Ideal) x0 x1 x3 x4 x5 = h
  generalize val_main_v65 (F := Ideal) x0 x1 x3 x4 x5 = t
  generalize val_main_v73 (F := Ideal) x12 = lw
  simp only [lidx66, ridx66, lidx67, ridx67, bidx70, lidx74, ridx74, bidx76, Gnn.combine_apply, Gnn.affine2At,
    Gnn.affine1At, Ideal.maximumf_def, Ideal.addf_def, Ideal.ofBits_def, Ideal.ofBits_zero_f32]

/-- The same with the second side branch. -/
theorem z_eq (x0 : (⟨S50000x58, .f32⟩ : BufTy).Contents (Elt Ideal)) (x1 : (⟨S2x800000, .i32⟩ : BufTy).Contents (Elt Ideal))
    (x3 x4 : (⟨S58x300, .f32⟩ : BufTy).Contents (Elt Ideal)) (x5 : (⟨S300, .f32⟩ : BufTy).Contents (Elt Ideal))
    (x6 x7 : (⟨S300x100, .f32⟩ : BufTy).Contents (Elt Ideal)) (x8 : (⟨S100, .f32⟩ : BufTy).Contents (Elt Ideal))
    (x14 : (⟨S100x58, .f32⟩ : BufTy).Contents (Elt Ideal)) (x15 : (⟨S100, .f32⟩ : BufTy).Contents (Elt Ideal)) :
    val_main_v86 (F := Ideal) x0 x1 x3 x4 x5 x6 x7 x8 x14 x15
      = Gnn.combine (M := 50000) (K := 300) (K' := 58) (N := 100) (val_main_v52 (F := Ideal) x0 x1 x3 x4 x5)
          (val_main_v65 (F := Ideal) x0 x1 x3 x4 x5) x6 x7 (fun q => x8 (ix1 q)) x0 (val_main_v80 (F := Ideal) x14)
          (fun q => x15 (ix1 q)) := by
  funext j
  obtain ⟨p, q, rfl⟩ : ∃ (p : Fin 50000) (q : Fin 100), j = ix2 p q := ⟨j 0, j 1, eq_ix2 j⟩
  rw [val_main_v86_apply, val_main_v72_apply, val_main_v71_apply, val_main_v68_apply, val_main_v66_apply,
    val_main_v67_apply, val_main_v70_apply, val_main_v69_apply, val_main_call3_v0_apply, val_main_call3_cst_apply,
    val_main_v85_apply, val_main_v84_apply, val_main_v81_apply, val_main_v83_apply, val_main_v82_apply,
    val_main_call5_v0_apply, val_main_call5_cst_apply]
  generalize val_main_v52 (F := Ideal) x0 x1 x3 x4 x5 = h
  generalize val_main_v65 (F := Ideal) x0 x1 x3 x4 x5 = t
  generalize val_main_v80 (F := Ideal) x14 = lw
  simp only [lidx66, ridx66, lidx67, ridx67, bidx70, lidx81, ridx81, bidx83, Gnn.combine_apply, Gnn.affine2At,
    Gnn.affine1At, Ideal.maximumf_def, Ideal.addf_def, Ideal.ofBits_def, Ideal.ofBits_zero_f32]

/-! ## The third layer -/

/-- The third layer is the bare two-matrix affine map of the second layer's first output and its propagated
    form, into one column. -/
theorem out_eq (x0 : (⟨S50000x58, .f32⟩ : BufTy).Contents (Elt Ideal)) (x1 : (⟨S2x800000, .i32⟩ : BufTy).Contents (Elt Ideal))
    (x3 x4 : (⟨S58x300, .f32⟩ : BufTy).Contents (Elt Ideal)) (x5 : (⟨S300, .f32⟩ : BufTy).Contents (Elt Ideal))
    (x6 x7 : (⟨S300x100, .f32⟩ : BufTy).Contents (Elt Ideal)) (x8 : (⟨S100, .f32⟩ : BufTy).Contents (Elt Ideal))
    (x9 x10 : (⟨S100x1, .f32⟩ : BufTy).Contents (Elt Ideal)) (x11 : (⟨S1, .f32⟩ : BufTy).Contents (Elt Ideal))
    (x12 : (⟨S100x58, .f32⟩ : BufTy).Contents (Elt Ideal)) (x13 : (⟨S100, .f32⟩ : BufTy).Contents (Elt Ideal)) :
    val_main_v172 (F := Ideal) x0 x1 x3 x4 x5 x6 x7 x8 x9 x10 x11 x12 x13
      = Gnn.dense (M := 50000) (K := 100) (N := 1) (val_main_v79 (F := Ideal) x0 x1 x3 x4 x5 x6 x7 x8 x12 x13)
          (val_main_v166 (F := Ideal) x0 x1 x3 x4 x5 x6 x7 x8 x12 x13) x9 x10 (fun q => x11 (ix1 q)) := by
  funext j
  obtain ⟨p, q, rfl⟩ : ∃ (p : Fin 50000) (q : Fin 1), j = ix2 p q := ⟨j 0, j 1, eq_ix2 j⟩
  rw [val_main_v172_apply, val_main_v169_apply, val_main_v167_apply, val_main_v168_apply, val_main_v171_apply,
    val_main_v170_apply]
  generalize val_main_v79 (F := Ideal) x0 x1 x3 x4 x5 x6 x7 x8 x12 x13 = xm
  generalize val_main_v166 (F := Ideal) x0 x1 x3 x4 x5 x6 x7 x8 x12 x13 = t
  simp only [lidx167, ridx167, lidx168, ridx168, bidx171, Gnn.dense_apply, Gnn.affine2At, Ideal.addf_def]

end Cert.ReferenceIdeal.RefDense
-- ==== Proof.Layer0.lean ====
/-
  The first layer's output, when the first region is left, is the reference's hidden features.

  The region's output array is the clamped two-matrix affine map of its input arrays, entry by entry; its input arrays are, at
  the region's entry, the launch features, the propagated features, the two weight matrices and the bias row; and the
  reference's hidden-feature stage is the same map of the same arrays.
-/
import proofs.«144274_j9294309229063_2_alg».proof.Proof.HostA
import proofs.«144274_j9294309229063_2_alg».proof.Proof.Region0
import proofs.«144274_j9294309229063_2_alg».proof.Proof.RefDense

set_option maxRecDepth 16384
set_option pp.maxSteps 5000
set_option pp.deepTerms false

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The hidden features. -/
theorem W6_v49 (c : Dev nD) : W6 (F := Ideal) m ρ c (Proc.devRef .tc main_v49) = Cert.ReferenceIdeal.ReadP.val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 5).trans ?_
  refine (Cert.KernelIdeal.Region0.arr (V5 m ρ) c).trans ?_
  refine Eq.trans ?_ (Cert.ReferenceIdeal.RefDense.h_eq _ _ _ _ _).symm
  simp only [V5, W5_arg0 m ρ c, W5_v47 m ρ c, W5_arg3 m ρ c, W5_arg4 m ρ c, W5_v48 m ρ c]

end Cert.KernelIdeal.HostValue

end
-- ==== Proof.HostB.lean ====
/-
  The idealized kernel's buffers when its second region is entered and when it is left.

  Between the first two regions the host propagates the hidden features along the edges exactly as it propagated the input
  features (the same source rows, edge weights and destination rows, now 300 wide), transposes the two side-branch weight
  matrices and recasts the three bias vectors to one-row matrices. Each buffer holds the reference's stage, as a function of
  the launch contents of the arguments; the hidden features themselves are the first region's output. The second region
  then writes only its two output arrays.
-/
import proofs.«144274_j9294309229063_2_alg».proof.Proof.Layer0
import Idealize.ShloMosaic.Lib.StableHlo.Run
import Idealize.ShloMosaic.Lib.ValueLayout

set_option maxRecDepth 16384
set_option pp.maxSteps 5000
set_option pp.deepTerms false

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## At the second region's entry -/

/-- The propagated hidden features. -/
theorem W7_v64 (c : Dev nD) : W7 (F := Ideal) m ρ c (Proc.devRef .tc main_v64) = Cert.ReferenceIdeal.ReadP.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W6 m ρ c) _ = _
  dsimp only [hostOps1]
  after_results_simp
  simp only [W6_v49 m ρ c, W6_v1 m ρ c, W6_v3 m ρ c, W6_v32 m ρ c]
  first | done | rfl

/-- The first side branch's weight matrix, transposed. -/
theorem W7_v65 (c : Dev nD) : W7 (F := Ideal) m ρ c (Proc.devRef .tc main_v65) = Cert.ReferenceIdeal.ReadP.val_main_v73 (F := Ideal) (m ((c : Thread nD τ).loc main_arg12)) := by
  show StableHlo.after hostOps1 (W6 m ρ c) _ = _
  dsimp only [hostOps1]
  after_results_simp
  simp only [W6_arg12 m ρ c]
  first | done | rfl

/-- The second side branch's weight matrix, transposed. -/
theorem W7_v66 (c : Dev nD) : W7 (F := Ideal) m ρ c (Proc.devRef .tc main_v66) = Cert.ReferenceIdeal.ReadP.val_main_v80 (F := Ideal) (m ((c : Thread nD τ).loc main_arg14)) := by
  show StableHlo.after hostOps1 (W6 m ρ c) _ = _
  dsimp only [hostOps1]
  after_results_simp
  simp only [W6_arg14 m ρ c]
  first | done | rfl
/-- The second layer's bias as a one-row matrix. -/
theorem W7_v67 (c : Dev nD) (q : Fin 100) :
    (W7 (F := Ideal) m ρ c (Proc.devRef .tc main_v67) : S1x100.Idx → EReal) (ix2 (0 : Fin 1) q) = ((m ((c : Thread nD τ).loc main_arg8)) : S100.Idx → EReal) (ix1 q) := by
  dsimp only [W7, hostOps1]
  after_results_simp
  rw [W6_arg8 m ρ c]
  exact shapeCast_a_1a_apply (a := 100) _ _ (0 : Fin 1) q
/-- The first side branch's bias as a one-row matrix. -/
theorem W7_v68 (c : Dev nD) (q : Fin 100) :
    (W7 (F := Ideal) m ρ c (Proc.devRef .tc main_v68) : S1x100.Idx → EReal) (ix2 (0 : Fin 1) q) = ((m ((c : Thread nD τ).loc main_arg13)) : S100.Idx → EReal) (ix1 q) := by
  dsimp only [W7, hostOps1]
  after_results_simp
  rw [W6_arg13 m ρ c]
  exact shapeCast_a_1a_apply (a := 100) _ _ (0 : Fin 1) q
/-- The second side branch's bias as a one-row matrix. -/
theorem W7_v69 (c : Dev nD) (q : Fin 100) :
    (W7 (F := Ideal) m ρ c (Proc.devRef .tc main_v69) : S1x100.Idx → EReal) (ix2 (0 : Fin 1) q) = ((m ((c : Thread nD τ).loc main_arg15)) : S100.Idx → EReal) (ix1 q) := by
  dsimp only [W7, hostOps1]
  after_results_simp
  rw [W6_arg15 m ρ c]
  exact shapeCast_a_1a_apply (a := 100) _ _ (0 : Fin 1) q

theorem W7_v49 (c : Dev nD) : W7 (F := Ideal) m ρ c (Proc.devRef .tc main_v49) = Cert.ReferenceIdeal.ReadP.val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W6 m ρ c) _ = _
  dsimp only [hostOps1]
  after_results_simp
  exact W6_v49 m ρ c

theorem W7_arg0 (c : Dev nD) : W7 (F := Ideal) m ρ c (Proc.devRef .tc main_arg0) = (m ((c : Thread nD τ).loc main_arg0)) := by
  show StableHlo.after hostOps1 (W6 m ρ c) _ = _
  dsimp only [hostOps1]
  after_results_simp
  exact W6_arg0 m ρ c

theorem W7_arg6 (c : Dev nD) : W7 (F := Ideal) m ρ c (Proc.devRef .tc main_arg6) = (m ((c : Thread nD τ).loc main_arg6)) := by
  show StableHlo.after hostOps1 (W6 m ρ c) _ = _
  dsimp only [hostOps1]
  after_results_simp
  exact W6_arg6 m ρ c

theorem W7_arg7 (c : Dev nD) : W7 (F := Ideal) m ρ c (Proc.devRef .tc main_arg7) = (m ((c : Thread nD τ).loc main_arg7)) := by
  show StableHlo.after hostOps1 (W6 m ρ c) _ = _
  dsimp only [hostOps1]
  after_results_simp
  exact W6_arg7 m ρ c

theorem W7_v1 (c : Dev nD) : W7 (F := Ideal) m ρ c (Proc.devRef .tc main_v1) = Cert.ReferenceIdeal.ReadP.val_main_v1 (F := Ideal) (m ((c : Thread nD τ).loc main_arg1)) := by
  show StableHlo.after hostOps1 (W6 m ρ c) _ = _
  dsimp only [hostOps1]
  after_results_simp
  exact W6_v1 m ρ c

theorem W7_v3 (c : Dev nD) : W7 (F := Ideal) m ρ c (Proc.devRef .tc main_v3) = Cert.ReferenceIdeal.ReadP.val_main_v3 (F := Ideal) (m ((c : Thread nD τ).loc main_arg1)) := by
  show StableHlo.after hostOps1 (W6 m ρ c) _ = _
  dsimp only [hostOps1]
  after_results_simp
  exact W6_v3 m ρ c

theorem W7_v32 (c : Dev nD) : W7 (F := Ideal) m ρ c (Proc.devRef .tc main_v32) = Cert.ReferenceIdeal.ReadP.val_main_v32 (F := Ideal) (m ((c : Thread nD τ).loc main_arg1)) := by
  show StableHlo.after hostOps1 (W6 m ρ c) _ = _
  dsimp only [hostOps1]
  after_results_simp
  exact W6_v32 m ρ c

theorem W7_arg1 (c : Dev nD) : W7 (F := Ideal) m ρ c (Proc.devRef .tc main_arg1) = (m ((c : Thread nD τ).loc main_arg1)) := by
  show StableHlo.after hostOps1 (W6 m ρ c) _ = _
  dsimp only [hostOps1]
  after_results_simp
  exact W6_arg1 m ρ c

theorem W7_arg2 (c : Dev nD) : W7 (F := Ideal) m ρ c (Proc.devRef .tc main_arg2) = (m ((c : Thread nD τ).loc main_arg2)) := by
  show StableHlo.after hostOps1 (W6 m ρ c) _ = _
  dsimp only [hostOps1]
  after_results_simp
  exact W6_arg2 m ρ c

theorem W7_arg9 (c : Dev nD) : W7 (F := Ideal) m ρ c (Proc.devRef .tc main_arg9) = (m ((c : Thread nD τ).loc main_arg9)) := by
  show StableHlo.after hostOps1 (W6 m ρ c) _ = _
  dsimp only [hostOps1]
  after_results_simp
  exact W6_arg9 m ρ c

theorem W7_arg10 (c : Dev nD) : W7 (F := Ideal) m ρ c (Proc.devRef .tc main_arg10) = (m ((c : Thread nD τ).loc main_arg10)) := by
  show StableHlo.after hostOps1 (W6 m ρ c) _ = _
  dsimp only [hostOps1]
  after_results_simp
  exact W6_arg10 m ρ c

theorem W7_arg11 (c : Dev nD) : W7 (F := Ideal) m ρ c (Proc.devRef .tc main_arg11) = (m ((c : Thread nD τ).loc main_arg11)) := by
  show StableHlo.after hostOps1 (W6 m ρ c) _ = _
  dsimp only [hostOps1]
  after_results_simp
  exact W6_arg11 m ρ c

/-! ## At the second region's exit: what it does not write -/

theorem W8_v1 (c : Dev nD) : W8 (F := Ideal) m ρ c (Proc.devRef .tc main_v1) = Cert.ReferenceIdeal.ReadP.val_main_v1 (F := Ideal) (m ((c : Thread nD τ).loc main_arg1)) :=
  (W8_of_ne m ρ c main_v1 (by decide)).trans (W7_v1 m ρ c)

theorem W8_v3 (c : Dev nD) : W8 (F := Ideal) m ρ c (Proc.devRef .tc main_v3) = Cert.ReferenceIdeal.ReadP.val_main_v3 (F := Ideal) (m ((c : Thread nD τ).loc main_arg1)) :=
  (W8_of_ne m ρ c main_v3 (by decide)).trans (W7_v3 m ρ c)

theorem W8_v32 (c : Dev nD) : W8 (F := Ideal) m ρ c (Proc.devRef .tc main_v32) = Cert.ReferenceIdeal.ReadP.val_main_v32 (F := Ideal) (m ((c : Thread nD τ).loc main_arg1)) :=
  (W8_of_ne m ρ c main_v32 (by decide)).trans (W7_v32 m ρ c)

theorem W8_arg1 (c : Dev nD) : W8 (F := Ideal) m ρ c (Proc.devRef .tc main_arg1) = (m ((c : Thread nD τ).loc main_arg1)) :=
  (W8_of_ne m ρ c main_arg1 (by decide)).trans (W7_arg1 m ρ c)

theorem W8_arg2 (c : Dev nD) : W8 (F := Ideal) m ρ c (Proc.devRef .tc main_arg2) = (m ((c : Thread nD τ).loc main_arg2)) :=
  (W8_of_ne m ρ c main_arg2 (by decide)).trans (W7_arg2 m ρ c)

theorem W8_arg9 (c : Dev nD) : W8 (F := Ideal) m ρ c (Proc.devRef .tc main_arg9) = (m ((c : Thread nD τ).loc main_arg9)) :=
  (W8_of_ne m ρ c main_arg9 (by decide)).trans (W7_arg9 m ρ c)

theorem W8_arg10 (c : Dev nD) : W8 (F := Ideal) m ρ c (Proc.devRef .tc main_arg10) = (m ((c : Thread nD τ).loc main_arg10)) :=
  (W8_of_ne m ρ c main_arg10 (by decide)).trans (W7_arg10 m ρ c)

theorem W8_arg11 (c : Dev nD) : W8 (F := Ideal) m ρ c (Proc.devRef .tc main_arg11) = (m ((c : Thread nD τ).loc main_arg11)) :=
  (W8_of_ne m ρ c main_arg11 (by decide)).trans (W7_arg11 m ρ c)

end Cert.KernelIdeal.HostValue

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«144274_j9294309229063_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.Region1.lean ====
/-
  The second layer's two result arrays, whole.

  The second layer works on the rows of the network in 25 slabs of 2000 rows. On each slab it forms the clamped
  two-matrix affine map of the hidden features and of their propagated copy (100 columns), and two side terms from
  the slab of raw features: the clamped one-matrix affine map with the first side weight, and the clamped one-matrix
  affine map with the second. The first result is the main term plus the first side term, the second result the main
  term plus the second side term. Row `r` of either result is computed by slab `r / 2000` alone, from row `r` of the
  three row-blocked inputs and from the whole parameter arrays, so each result array, after the 25 write-backs, is the
  specification's `combine` of the arrays as the layer found them, entry by entry.

  The module reads each payload of the slab body at an entry `(p, q)`, then each write-back as the slab of `combine`,
  then the arrays through the cover of the rows by the slabs.
-/
import proofs.«144274_j9294309229063_2_alg».proof.Proof.Gen.KernelIdeal.Frame
import proofs.«144274_j9294309229063_2_alg».proof.Proof.Spec
import proofs.«144274_j9294309229063_2_alg».proof.Proof.LibPlainDot
import proofs.«144274_j9294309229063_2_alg».proof.Proof.LibTileOps
import Idealize.ShloMosaic.PureOps.Ideal.Laws
import Idealize.ShloMosaic.Lib.Pipeline.Value
import Idealize.ShloMosaic.Lib.ValueLayout
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.ShloMosaic.Pipeline (Dat)

/-! ## The slab body's payloads at an entry -/

/-- A matrix product of the slab body into the zero accumulator, at entry `(p, q)`: the textbook sum. The operands
    arrive rounded to the narrow format, which on the extended reals is the identity. -/
theorem mm300_apply (a : FVec Ideal S2000x300 .bf16) (w : FVec Ideal S300x100 .bf16) (p : Fin 2000) (q : Fin 100) :
    matmul (F := Ideal) dot_S2000x300_S300x100_S2000x100_1_0_0_1_n_n none a w (constant (F := Ideal) S2000x100 .f32 0x00000000#32) (ix2 p q)
      = ∑ k : Fin 300, a (ix2 p k) * w (ix2 k q) :=
  Gcn.Lib.plain_matmul_zero_apply (M := 2000) (K := 300) (N := 100) a w none p q

theorem mm58_apply (a : FVec Ideal S2000x58 .bf16) (w : FVec Ideal S58x100 .bf16) (p : Fin 2000) (q : Fin 100) :
    matmul (F := Ideal) dot_S2000x58_S58x100_S2000x100_1_0_0_1_n_n none a w (constant (F := Ideal) S2000x100 .f32 0x00000000#32) (ix2 p q)
      = ∑ k : Fin 58, a (ix2 p k) * w (ix2 k q) :=
  Gcn.Lib.plain_matmul_zero_apply (M := 2000) (K := 58) (N := 100) a w none p q

/-- A bias row recast to its own shape and broadcast down the slab's rows, at `(p, q)`: the row at `q`. -/
theorem biasRow_apply (b : Vec Ideal S1x100 .f32) (p : Fin 2000) (q : Fin 100) :
    broadcastTo S2000x100 (shapeCast S1x100 b shapeCasts_S1x100_S1x100) broadcasts_S1x100_S2000x100 (ix2 p q)
      = b (ix2 (0 : Fin 1) q) := by
  rw [shapeCast_self]
  exact broadcastTo_1b_ab_apply (a := 2000) (b := 100) b broadcasts_S1x100_S2000x100 p q

/-- The main term of the slab body at `(p, q)`: the two contractions added first, the bias last, clamped at zero. -/
theorem main_apply (v0 v3 : Vec Ideal S2000x300 .f32) (v8 v10 : Vec Ideal S300x100 .f32) (v21 : Vec Ideal S1x100 .f32)
    (p : Fin 2000) (q : Fin 100) :
    k1_pay4 (F := Ideal) v0 v3 v8 v10 v21 (ix2 p q)
      = max (((∑ k : Fin 300, v0 (ix2 p k) * v8 (ix2 k q)) + ∑ k : Fin 300, v3 (ix2 p k) * v10 (ix2 k q))
          + v21 (ix2 (0 : Fin 1) q)) 0 := by
  unfold k1_pay4
  rw [maximumf_apply, addf_apply, addf_apply, broadcast_apply, mm300_apply, mm300_apply, biasRow_apply]
  simp only [truncf_apply, shapeCast_self]
  show max _ (Ideal.ofBits .f32 0x00000000#32) = _
  rw [Ideal.ofBits_zero_f32]

/-- The first side term at `(p, q)`: one contraction of the raw features plus its bias, clamped at zero. -/
theorem side1_apply (v6 : Vec Ideal S2000x58 .f32) (v12 : Vec Ideal S58x100 .f32) (v28 : Vec Ideal S1x100 .f32)
    (p : Fin 2000) (q : Fin 100) :
    k1_pay5 (F := Ideal) v6 v12 v28 (ix2 p q)
      = max ((∑ k : Fin 58, v6 (ix2 p k) * v12 (ix2 k q)) + v28 (ix2 (0 : Fin 1) q)) 0 := by
  unfold k1_pay5 k1_pay3
  rw [maximumf_apply, addf_apply, broadcast_apply, mm58_apply, biasRow_apply]
  simp only [truncf_apply, shapeCast_self]
  show max _ (Ideal.ofBits .f32 0x00000000#32) = _
  rw [Ideal.ofBits_zero_f32]

/-- The second side term's contraction at `(p, q)`. -/
theorem side2mm_apply (v6 : Vec Ideal S2000x58 .f32) (v15 : Vec Ideal S58x100 .f32) (p : Fin 2000) (q : Fin 100) :
    k1_pay6 (F := Ideal) v6 v15 (ix2 p q) = ∑ k : Fin 58, v6 (ix2 p k) * v15 (ix2 k q) := by
  unfold k1_pay6 k1_pay3
  rw [mm58_apply]
  simp only [truncf_apply, shapeCast_self]

/-- The first result's payload at `(p, q)`: the main term plus the first side term. -/
theorem sum1_apply (v26 v33 : FVec Ideal S2000x100 .f32) (p : Fin 2000) (q : Fin 100) :
    k1_pay1 (F := Ideal) v26 v33 (ix2 p q) = v26 (ix2 p q) + v33 (ix2 p q) := rfl

/-- The second result's payload at `(p, q)`: the main term plus the clamped second contraction with its bias. -/
theorem sum2_apply (v26 v34 : FVec Ideal S2000x100 .f32) (v35 : Vec Ideal S1x100 .f32) (p : Fin 2000) (q : Fin 100) :
    k1_pay2 (F := Ideal) v26 v34 v35 (ix2 p q) = v26 (ix2 p q) + max (v34 (ix2 p q) + v35 (ix2 (0 : Fin 1) q)) 0 := by
  unfold k1_pay2
  rw [addf_apply, maximumf_apply, addf_apply, broadcast_apply, biasRow_apply]
  show _ + max _ (Ideal.ofBits .f32 0x00000000#32) = _
  rw [Ideal.ofBits_zero_f32]

/-! ## A slab's entry is the specification's entry -/

/-- Entry `(p, q)` of the first result's slab, when row `p` of each row-blocked input slab is row `r` of its array and
    each parameter block is its array: the specification's second layer with the first side branch, at `(r, q)`. -/
theorem xm_entry
    (A0 A1 : S50000x300.Idx → EReal) (A2 : S50000x58.Idx → EReal)
    (B3 B4 : S300x100.Idx → EReal) (B5 : S1x100.Idx → EReal) (B6 : S58x100.Idx → EReal) (B7 : S1x100.Idx → EReal)
    (x0 x1 : Vec Ideal S2000x300 .f32) (x2 : Vec Ideal S2000x58 .f32) (x3 x4 : Vec Ideal S300x100 .f32)
    (x5 : Vec Ideal S1x100 .f32) (x6 : Vec Ideal S58x100 .f32) (x7 : Vec Ideal S1x100 .f32)
    (r : Fin 50000) (p : Fin 2000) (q : Fin 100)
    (h0 : ∀ k : Fin 300, x0 (ix2 p k) = A0 (ix2 r k)) (h1 : ∀ k : Fin 300, x1 (ix2 p k) = A1 (ix2 r k))
    (h2 : ∀ k : Fin 58, x2 (ix2 p k) = A2 (ix2 r k))
    (h3 : x3 = B3) (h4 : x4 = B4) (h5 : x5 = B5) (h6 : x6 = B6) (h7 : x7 = B7) :
    k1_pay1 (F := Ideal) (k1_pay4 x0 x1 x3 x4 x5) (k1_pay5 x2 x6 x7) (ix2 p q)
      = Gnn.combine (M := 50000) (K := 300) (K' := 58) (N := 100) A0 A1 B3 B4 (fun q => B5 (ix2 (0 : Fin 1) q)) A2 B6
          (fun q => B7 (ix2 (0 : Fin 1) q)) (ix2 r q) := by
  subst h3 h4 h5 h6 h7
  rw [sum1_apply, main_apply, side1_apply, Gnn.combine_apply]
  unfold Gnn.affine2At Gnn.affine1At
  simp only [h0, h1, h2]

/-- The same for the second result's slab, with the second side weight and bias. -/
theorem z_entry
    (A0 A1 : S50000x300.Idx → EReal) (A2 : S50000x58.Idx → EReal)
    (B3 B4 : S300x100.Idx → EReal) (B5 : S1x100.Idx → EReal) (B8 : S58x100.Idx → EReal) (B9 : S1x100.Idx → EReal)
    (x0 x1 : Vec Ideal S2000x300 .f32) (x2 : Vec Ideal S2000x58 .f32) (x3 x4 : Vec Ideal S300x100 .f32)
    (x5 : Vec Ideal S1x100 .f32) (x8 : Vec Ideal S58x100 .f32) (x9 : Vec Ideal S1x100 .f32)
    (r : Fin 50000) (p : Fin 2000) (q : Fin 100)
    (h0 : ∀ k : Fin 300, x0 (ix2 p k) = A0 (ix2 r k)) (h1 : ∀ k : Fin 300, x1 (ix2 p k) = A1 (ix2 r k))
    (h2 : ∀ k : Fin 58, x2 (ix2 p k) = A2 (ix2 r k))
    (h3 : x3 = B3) (h4 : x4 = B4) (h5 : x5 = B5) (h8 : x8 = B8) (h9 : x9 = B9) :
    k1_pay2 (F := Ideal) (k1_pay4 x0 x1 x3 x4 x5) (k1_pay6 x2 x8) x9 (ix2 p q)
      = Gnn.combine (M := 50000) (K := 300) (K' := 58) (N := 100) A0 A1 B3 B4 (fun q => B5 (ix2 (0 : Fin 1) q)) A2 B8
          (fun q => B9 (ix2 (0 : Fin 1) q)) (ix2 r q) := by
  subst h3 h4 h5 h8 h9
  rw [sum2_apply, main_apply, side2mm_apply, Gnn.combine_apply]
  unfold Gnn.affine2At Gnn.affine1At
  simp only [h0, h1, h2]

/-! ## The slabs: where a block's entry sits in its array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the 25 points: a row-blocked window is at block `(t, 0)` at point `t`,
    a parameter window at block `(0, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = t.val ∧ win1_10.index t (1 : Fin 2) = 0)
    ∧ (win1_11.index t (0 : Fin 2) = t.val ∧ win1_11.index t (1 : Fin 2) = 0) :=
  (by decide +kernel : ∀ t : Fin grid1.N, _)

/-- Row `p` of the slab of hidden features at point `t` is row `2000 t + p` of the array. -/
theorem rows0 (c : Dev nD) (t : Fin cfg1.N) (p : Fin 2000) (k : Fin 300) (r : Fin 50000) (hr : r.val = 2000 * t.val + p.val) :
    (iblk1 V c 0 t : Vec Ideal S2000x300 .f32) (ix2 p k) = (V c main_v49 : S50000x300.Idx → EReal) (ix2 r k) := by
  show (V c main_v49 : S50000x300.Idx → EReal) (((cfg1.win 0).blk t).view.emb (ix2 p k)) = _
  refine congrArg _ (funext fun a => Fin.ext ?_)
  obtain ⟨e0, e1⟩ := (idx_facts t).1
  match a with
  | ⟨0, _⟩ => show win1_0.index t (0 : Fin 2) * 2000 + 1 * p.val = r.val; rw [e0, hr]; omega
  | ⟨1, _⟩ => show win1_0.index t (1 : Fin 2) * 300 + 1 * k.val = k.val; rw [e1]; omega

/-- The same for the slab of propagated hidden features. -/
theorem rows1 (c : Dev nD) (t : Fin cfg1.N) (p : Fin 2000) (k : Fin 300) (r : Fin 50000) (hr : r.val = 2000 * t.val + p.val) :
    (iblk1 V c 1 t : Vec Ideal S2000x300 .f32) (ix2 p k) = (V c main_v64 : S50000x300.Idx → EReal) (ix2 r k) := by
  show (V c main_v64 : S50000x300.Idx → EReal) (((cfg1.win 1).blk t).view.emb (ix2 p k)) = _
  refine congrArg _ (funext fun a => Fin.ext ?_)
  obtain ⟨e0, e1⟩ := (idx_facts t).2.1
  match a with
  | ⟨0, _⟩ => show win1_1.index t (0 : Fin 2) * 2000 + 1 * p.val = r.val; rw [e0, hr]; omega
  | ⟨1, _⟩ => show win1_1.index t (1 : Fin 2) * 300 + 1 * k.val = k.val; rw [e1]; omega

/-- The same for the slab of raw features. -/
theorem rows2 (c : Dev nD) (t : Fin cfg1.N) (p : Fin 2000) (k : Fin 58) (r : Fin 50000) (hr : r.val = 2000 * t.val + p.val) :
    (iblk1 V c 2 t : Vec Ideal S2000x58 .f32) (ix2 p k) = (V c main_arg0 : S50000x58.Idx → EReal) (ix2 r k) := by
  show (V c main_arg0 : S50000x58.Idx → EReal) (((cfg1.win 2).blk t).view.emb (ix2 p k)) = _
  refine congrArg _ (funext fun a => Fin.ext ?_)
  obtain ⟨e0, e1⟩ := (idx_facts t).2.2.1
  match a with
  | ⟨0, _⟩ => show win1_2.index t (0 : Fin 2) * 2000 + 1 * p.val = r.val; rw [e0, hr]; omega
  | ⟨1, _⟩ => show win1_2.index t (1 : Fin 2) * 58 + 1 * k.val = k.val; rw [e1]; omega

/-- A parameter window's block is its whole array, at every point: the first weight of the main term, -/
theorem par3 (c : Dev nD) (t : Fin cfg1.N) :
    (iblk1 V c 3 t : Vec Ideal S300x100 .f32) = (V c main_arg6 : S300x100.Idx → EReal) := by
  funext y
  show (V c main_arg6 : S300x100.Idx → EReal) (((cfg1.win 3).blk t).view.emb y) = _
  refine congrArg _ (funext fun a => Fin.ext ?_)
  obtain ⟨e0, e1⟩ := (idx_facts t).2.2.2.1
  match a with
  | ⟨0, _⟩ => show win1_3.index t (0 : Fin 2) * 300 + 1 * (y 0).val = (y 0).val; rw [e0]; omega
  | ⟨1, _⟩ => show win1_3.index t (1 : Fin 2) * 100 + 1 * (y 1).val = (y 1).val; rw [e1]; omega

/-- the second weight of the main term, -/
theorem par4 (c : Dev nD) (t : Fin cfg1.N) :
    (iblk1 V c 4 t : Vec Ideal S300x100 .f32) = (V c main_arg7 : S300x100.Idx → EReal) := by
  funext y
  show (V c main_arg7 : S300x100.Idx → EReal) (((cfg1.win 4).blk t).view.emb y) = _
  refine congrArg _ (funext fun a => Fin.ext ?_)
  obtain ⟨e0, e1⟩ := (idx_facts t).2.2.2.2.1
  match a with
  | ⟨0, _⟩ => show win1_4.index t (0 : Fin 2) * 300 + 1 * (y 0).val = (y 0).val; rw [e0]; omega
  | ⟨1, _⟩ => show win1_4.index t (1 : Fin 2) * 100 + 1 * (y 1).val = (y 1).val; rw [e1]; omega

/-- the bias row of the main term, -/
theorem par5 (c : Dev nD) (t : Fin cfg1.N) :
    (iblk1 V c 5 t : Vec Ideal S1x100 .f32) = (V c main_v67 : S1x100.Idx → EReal) := by
  funext y
  show (V c main_v67 : S1x100.Idx → EReal) (((cfg1.win 5).blk t).view.emb y) = _
  refine congrArg _ (funext fun a => Fin.ext ?_)
  obtain ⟨e0, e1⟩ := (idx_facts t).2.2.2.2.2.1
  match a with
  | ⟨0, _⟩ => show win1_5.index t (0 : Fin 2) * 1 + 1 * (y 0).val = (y 0).val; rw [e0]; omega
  | ⟨1, _⟩ => show win1_5.index t (1 : Fin 2) * 100 + 1 * (y 1).val = (y 1).val; rw [e1]; omega

/-- the first side weight, -/
theorem par6 (c : Dev nD) (t : Fin cfg1.N) :
    (iblk1 V c 6 t : Vec Ideal S58x100 .f32) = (V c main_v65 : S58x100.Idx → EReal) := by
  funext y
  show (V c main_v65 : S58x100.Idx → EReal) (((cfg1.win 6).blk t).view.emb y) = _
  refine congrArg _ (funext fun a => Fin.ext ?_)
  obtain ⟨e0, e1⟩ := (idx_facts t).2.2.2.2.2.2.1
  match a with
  | ⟨0, _⟩ => show win1_6.index t (0 : Fin 2) * 58 + 1 * (y 0).val = (y 0).val; rw [e0]; omega
  | ⟨1, _⟩ => show win1_6.index t (1 : Fin 2) * 100 + 1 * (y 1).val = (y 1).val; rw [e1]; omega

/-- the first side bias row, -/
theorem par7 (c : Dev nD) (t : Fin cfg1.N) :
    (iblk1 V c 7 t : Vec Ideal S1x100 .f32) = (V c main_v68 : S1x100.Idx → EReal) := by
  funext y
  show (V c main_v68 : S1x100.Idx → EReal) (((cfg1.win 7).blk t).view.emb y) = _
  refine congrArg _ (funext fun a => Fin.ext ?_)
  obtain ⟨e0, e1⟩ := (idx_facts t).2.2.2.2.2.2.2.1
  match a with
  | ⟨0, _⟩ => show win1_7.index t (0 : Fin 2) * 1 + 1 * (y 0).val = (y 0).val; rw [e0]; omega
  | ⟨1, _⟩ => show win1_7.index t (1 : Fin 2) * 100 + 1 * (y 1).val = (y 1).val; rw [e1]; omega

/-- the second side weight, -/
theorem par8 (c : Dev nD) (t : Fin cfg1.N) :
    (iblk1 V c 8 t : Vec Ideal S58x100 .f32) = (V c main_v66 : S58x100.Idx → EReal) := by
  funext y
  show (V c main_v66 : S58x100.Idx → EReal) (((cfg1.win 8).blk t).view.emb y) = _
  refine congrArg _ (funext fun a => Fin.ext ?_)
  obtain ⟨e0, e1⟩ := (idx_facts t).2.2.2.2.2.2.2.2.1
  match a with
  | ⟨0, _⟩ => show win1_8.index t (0 : Fin 2) * 58 + 1 * (y 0).val = (y 0).val; rw [e0]; omega
  | ⟨1, _⟩ => show win1_8.index t (1 : Fin 2) * 100 + 1 * (y 1).val = (y 1).val; rw [e1]; omega

/-- the second side bias row. -/
theorem par9 (c : Dev nD) (t : Fin cfg1.N) :
    (iblk1 V c 9 t : Vec Ideal S1x100 .f32) = (V c main_v69 : S1x100.Idx → EReal) := by
  funext y
  show (V c main_v69 : S1x100.Idx → EReal) (((cfg1.win 9).blk t).view.emb y) = _
  refine congrArg _ (funext fun a => Fin.ext ?_)
  obtain ⟨e0, e1⟩ := (idx_facts t).2.2.2.2.2.2.2.2.2.1
  match a with
  | ⟨0, _⟩ => show win1_9.index t (0 : Fin 2) * 1 + 1 * (y 0).val = (y 0).val; rw [e0]; omega
  | ⟨1, _⟩ => show win1_9.index t (1 : Fin 2) * 100 + 1 * (y 1).val = (y 1).val; rw [e1]; omega

/-- Entry `(p, q)` of the first result's slab at point `t` sits at `(2000 t + p, q)` of its array. -/
theorem out_emb10 (t : Fin cfg1.N) (p : Fin 2000) (q : Fin 100) (r : Fin 50000) (hr : r.val = 2000 * t.val + p.val) :
    ((cfg1.win 10).blk t).view.emb (ix2 p q) = (ix2 r q : S50000x100.Idx) := by
  funext a
  apply Fin.ext
  obtain ⟨e0, e1⟩ := (idx_facts t).2.2.2.2.2.2.2.2.2.2.1
  match a with
  | ⟨0, _⟩ => show win1_10.index t (0 : Fin 2) * 2000 + 1 * p.val = r.val; rw [e0, hr]; omega
  | ⟨1, _⟩ => show win1_10.index t (1 : Fin 2) * 100 + 1 * q.val = q.val; rw [e1]; omega

/-- The same for the second result's slab. -/
theorem out_emb11 (t : Fin cfg1.N) (p : Fin 2000) (q : Fin 100) (r : Fin 50000) (hr : r.val = 2000 * t.val + p.val) :
    ((cfg1.win 11).blk t).view.emb (ix2 p q) = (ix2 r q : S50000x100.Idx) := by
  funext a
  apply Fin.ext
  obtain ⟨e0, e1⟩ := (idx_facts t).2.2.2.2.2.2.2.2.2.2.2
  match a with
  | ⟨0, _⟩ => show win1_11.index t (0 : Fin 2) * 2000 + 1 * p.val = r.val; rw [e0, hr]; omega
  | ⟨1, _⟩ => show win1_11.index t (1 : Fin 2) * 100 + 1 * q.val = q.val; rw [e1]; omega

/-! ## The first result: what a point writes back, the cover, the array -/

/-- Point `t` writes back to the first result slab `t` of the specification's second layer with the first side branch, of the arrays as the layer finds them. -/
theorem flushed_xm (c : Dev nD) (t : Fin cfg1.N) :
    (dat1 (F := Ideal) V c).flushed 10 t = ((cfg1.win 10).blk t).view.read (Elt Ideal)
      (Gnn.combine (M := 50000) (K := 300) (K' := 58) (N := 100) (V c main_v49) (V c main_v64) (V c main_arg6) (V c main_arg7)
        (fun q => V c main_v67 (ix2 (0 : Fin 1) q)) (V c main_arg0) (V c main_v65) (fun q => V c main_v68 (ix2 (0 : Fin 1) q))) := by
  show (cfg1.win 10).cut (grid1.coords t) ((dat1 V c).after 10 t) = _
  rw [after1_10]
  unfold out1_10
  rw [View.canon_unit_zero hz]
  simp only [View.ld_unit_zero (S := S2000x300) hz, View.ld_unit_zero (S := S2000x58) hz, View.ld_unit_zero (S := S300x100) hz,
    View.ld_unit_zero (S := S58x100) hz, View.ld_unit_zero (S := S1x100) hz]
  funext j
  obtain ⟨p, q, rfl⟩ : ∃ (p : Fin 2000) (q : Fin 100), j = ix2 p q := ⟨j 0, j 1, eq_ix2 j⟩
  have hN : cfg1.N = 25 := N_1
  have hr : 2000 * t.val + p.val < 50000 := by have := t.isLt; omega
  refine (xm_entry (V c main_v49) (V c main_v64) (V c main_arg0) (V c main_arg6) (V c main_arg7) (V c main_v67) (V c main_v65) (V c main_v68)
    (iblk1 V c 0 t) (iblk1 V c 1 t) (iblk1 V c 2 t) (iblk1 V c 3 t) (iblk1 V c 4 t) (iblk1 V c 5 t) (iblk1 V c 6 t) (iblk1 V c 7 t)
    ⟨2000 * t.val + p.val, hr⟩ p q
    (fun k => rows0 V c t p k _ rfl) (fun k => rows1 V c t p k _ rfl) (fun k => rows2 V c t p k _ rfl)
    (par3 V c t) (par4 V c t) (par5 V c t) (par6 V c t) (par7 V c t)).trans ?_
  exact (congrArg _ (out_emb10 t p q _ rfl)).symm

/-- An index of the first result is in point `t`'s slab iff each coordinate is in the slab's range on its axis. -/
theorem mem_slab_xm (t : Fin cfg1.N) (i : S50000x100.Idx) :
    i ∈ ((cfg1.win 10).blk t).view.set ↔ ∀ a : Fin 2, win1_10.index t a * S2000x100.size a ≤ (i a).val
      ∧ (i a).val < win1_10.index t a * S2000x100.size a + S2000x100.size a := by
  show i ∈ ((View.whole main_v70_0).slice (win1_10.rect t)).set ↔ _
  rw [View.set_slice_whole, Rect.mem_set_unit]
  exact Iff.rfl

/-- Every index of the first result is in the slab of the point its row falls in, and every point writes back. -/
theorem cover_xm (i : S50000x100.Idx) :
    ∃ t : Fin cfg1.N, (cfg1.win 10).flush t = true ∧ i ∈ ((cfg1.win 10).blk t).view.set := by
  have hi0 : (i 0).val < 50000 := (i 0).isLt
  have hi1 : (i 1).val < 100 := (i 1).isLt
  have hN : cfg1.N = 25 := N_1
  obtain ⟨t, ht⟩ : ∃ t : Fin cfg1.N, t.val = (i 0).val / 2000 := ⟨⟨(i 0).val / 2000, by omega⟩, rfl⟩
  refine ⟨t, flush1_10 t, ?_⟩
  rw [mem_slab_xm]
  obtain ⟨e0, e1⟩ := (idx_facts t).2.2.2.2.2.2.2.2.2.2.1
  intro a
  match a with
  | ⟨0, _⟩ =>
    show win1_10.index t (0 : Fin 2) * 2000 ≤ (i 0).val ∧ (i 0).val < win1_10.index t (0 : Fin 2) * 2000 + 2000
    rw [e0, ht]; omega
  | ⟨1, _⟩ =>
    show win1_10.index t (1 : Fin 2) * 100 ≤ (i 1).val ∧ (i 1).val < win1_10.index t (1 : Fin 2) * 100 + 100
    rw [e1]; omega

/-- The first result array after the 25 write-backs is the second layer with the first side branch, of the arrays as the layer found them. -/
theorem arr_xm (V : (c : Dev nD) → (b : Ref sig .tc) → Buf (Elt Ideal) ((c : Thread nD τ).loc b)) (c : Dev nD) :
    (dat1 (F := Ideal) V c).arrAt 10 cfg1.N
      = Gnn.combine (M := 50000) (K := 300) (K' := 58) (N := 100) (V c main_v49) (V c main_v64) (V c main_arg6) (V c main_arg7) (fun q => V c main_v67 (ix2 (0 : Fin 1) q)) (V c main_arg0) (V c main_v65) (fun q => V c main_v68 (ix2 (0 : Fin 1) q)) :=
  (dat1 (F := Ideal) V c).arrAt_eq_of_cover 10 _ (fun t _ => flushed_xm V c t) cover_xm

/-! ## The second result -/

/-- Point `t` writes back to the second result slab `t` of the second layer with the second side branch. -/
theorem flushed_z (c : Dev nD) (t : Fin cfg1.N) :
    (dat1 (F := Ideal) V c).flushed 11 t = ((cfg1.win 11).blk t).view.read (Elt Ideal)
      (Gnn.combine (M := 50000) (K := 300) (K' := 58) (N := 100) (V c main_v49) (V c main_v64) (V c main_arg6) (V c main_arg7)
        (fun q => V c main_v67 (ix2 (0 : Fin 1) q)) (V c main_arg0) (V c main_v66) (fun q => V c main_v69 (ix2 (0 : Fin 1) q))) := by
  show (cfg1.win 11).cut (grid1.coords t) ((dat1 V c).after 11 t) = _
  rw [after1_11]
  unfold out1_11
  rw [View.canon_unit_zero hz]
  simp only [View.ld_unit_zero (S := S2000x300) hz, View.ld_unit_zero (S := S2000x58) hz, View.ld_unit_zero (S := S300x100) hz,
    View.ld_unit_zero (S := S58x100) hz, View.ld_unit_zero (S := S1x100) hz]
  funext j
  obtain ⟨p, q, rfl⟩ : ∃ (p : Fin 2000) (q : Fin 100), j = ix2 p q := ⟨j 0, j 1, eq_ix2 j⟩
  have hN : cfg1.N = 25 := N_1
  have hr : 2000 * t.val + p.val < 50000 := by have := t.isLt; omega
  refine (z_entry (V c main_v49) (V c main_v64) (V c main_arg0) (V c main_arg6) (V c main_arg7) (V c main_v67) (V c main_v66) (V c main_v69)
    (iblk1 V c 0 t) (iblk1 V c 1 t) (iblk1 V c 2 t) (iblk1 V c 3 t) (iblk1 V c 4 t) (iblk1 V c 5 t) (iblk1 V c 8 t) (iblk1 V c 9 t)
    ⟨2000 * t.val + p.val, hr⟩ p q
    (fun k => rows0 V c t p k _ rfl) (fun k => rows1 V c t p k _ rfl) (fun k => rows2 V c t p k _ rfl)
    (par3 V c t) (par4 V c t) (par5 V c t) (par8 V c t) (par9 V c t)).trans ?_
  exact (congrArg _ (out_emb11 t p q _ rfl)).symm

/-- An index of the second result is in point `t`'s slab iff each coordinate is in the slab's range on its axis. -/
theorem mem_slab_z (t : Fin cfg1.N) (i : S50000x100.Idx) :
    i ∈ ((cfg1.win 11).blk t).view.set ↔ ∀ a : Fin 2, win1_11.index t a * S2000x100.size a ≤ (i a).val
      ∧ (i a).val < win1_11.index t a * S2000x100.size a + S2000x100.size a := by
  show i ∈ ((View.whole main_v70_1).slice (win1_11.rect t)).set ↔ _
  rw [View.set_slice_whole, Rect.mem_set_unit]
  exact Iff.rfl

/-- Every index of the second result is in the slab of the point its row falls in, and every point writes back. -/
theorem cover_z (i : S50000x100.Idx) :
    ∃ t : Fin cfg1.N, (cfg1.win 11).flush t = true ∧ i ∈ ((cfg1.win 11).blk t).view.set := by
  have hi0 : (i 0).val < 50000 := (i 0).isLt
  have hi1 : (i 1).val < 100 := (i 1).isLt
  have hN : cfg1.N = 25 := N_1
  obtain ⟨t, ht⟩ : ∃ t : Fin cfg1.N, t.val = (i 0).val / 2000 := ⟨⟨(i 0).val / 2000, by omega⟩, rfl⟩
  refine ⟨t, flush1_11 t, ?_⟩
  rw [mem_slab_z]
  obtain ⟨e0, e1⟩ := (idx_facts t).2.2.2.2.2.2.2.2.2.2.2
  intro a
  match a with
  | ⟨0, _⟩ =>
    show win1_11.index t (0 : Fin 2) * 2000 ≤ (i 0).val ∧ (i 0).val < win1_11.index t (0 : Fin 2) * 2000 + 2000
    rw [e0, ht]; omega
  | ⟨1, _⟩ =>
    show win1_11.index t (1 : Fin 2) * 100 ≤ (i 1).val ∧ (i 1).val < win1_11.index t (1 : Fin 2) * 100 + 100
    rw [e1]; omega

/-- The second result array after the 25 write-backs is the second layer with the second side branch. -/
theorem arr_z (V : (c : Dev nD) → (b : Ref sig .tc) → Buf (Elt Ideal) ((c : Thread nD τ).loc b)) (c : Dev nD) :
    (dat1 (F := Ideal) V c).arrAt 11 cfg1.N
      = Gnn.combine (M := 50000) (K := 300) (K' := 58) (N := 100) (V c main_v49) (V c main_v64) (V c main_arg6) (V c main_arg7) (fun q => V c main_v67 (ix2 (0 : Fin 1) q)) (V c main_arg0) (V c main_v66) (fun q => V c main_v69 (ix2 (0 : Fin 1) q)) :=
  (dat1 (F := Ideal) V c).arrAt_eq_of_cover 11 _ (fun t _ => flushed_z V c t) cover_z

end Cert.KernelIdeal.Region1

end
-- ==== Proof.Layer1.lean ====
/-
  The second region's two outputs, when it is left, are the reference's two combined feature arrays.

  Each output array is, entry by entry, the clamped two-matrix affine map of the hidden features and their propagation plus
  the clamped one-matrix affine map of the launch features through one of the two transposed side weights; the region's input
  arrays are, at its entry, exactly the arrays the reference's stages take.
-/
import proofs.«144274_j9294309229063_2_alg».proof.Proof.HostB
import proofs.«144274_j9294309229063_2_alg».proof.Proof.Region1
import proofs.«144274_j9294309229063_2_alg».proof.Proof.RefDense

set_option maxRecDepth 16384
set_option pp.maxSteps 5000
set_option pp.deepTerms false

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The features the third layer reads. -/
theorem W8_v70_0 (c : Dev nD) : W8 (F := Ideal) m ρ c (Proc.devRef .tc main_v70_0) = Cert.ReferenceIdeal.ReadP.val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) := by
  refine (W8_arr m ρ c 10).trans ?_
  refine (Cert.KernelIdeal.Region1.arr_xm (V7 m ρ) c).trans ?_
  refine Eq.trans ?_ (Cert.ReferenceIdeal.RefDense.xm_eq _ _ _ _ _ _ _ _ _ _).symm
  simp only [V7, W7_v49 m ρ c, W7_v64 m ρ c, W7_arg6 m ρ c, W7_arg7 m ρ c, W7_v67 m ρ c, W7_arg0 m ρ c, W7_v65 m ρ c, W7_v68 m ρ c]

/-- The features the link scores read. -/
theorem W8_v70_1 (c : Dev nD) : W8 (F := Ideal) m ρ c (Proc.devRef .tc main_v70_1) = Cert.ReferenceIdeal.ReadP.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg14)) (m ((c : Thread nD τ).loc main_arg15)) := by
  refine (W8_arr m ρ c 11).trans ?_
  refine (Cert.KernelIdeal.Region1.arr_z (V7 m ρ) c).trans ?_
  refine Eq.trans ?_ (Cert.ReferenceIdeal.RefDense.z_eq _ _ _ _ _ _ _ _ _ _).symm
  simp only [V7, W7_v49 m ρ c, W7_v64 m ρ c, W7_arg6 m ρ c, W7_arg7 m ρ c, W7_v67 m ρ c, W7_arg0 m ρ c, W7_v66 m ρ c, W7_v69 m ρ c]

end Cert.KernelIdeal.HostValue

end
-- ==== Proof.HostC.lean ====
/-
  The idealized kernel's buffers when its third region is entered.

  Between the last two regions the host computes the link-prediction loss from the second combined feature array and the two
  edge lists (for each edge the inner product of its endpoints' rows, a logistic function, a logarithm, a mean over the
  edges, for the positive and the negative edges), propagates the first combined feature array along the edges, and
  recasts the last bias to a one-by-one matrix. These are the reference's operations in the reference's order; each buffer
  holds the reference's stage as a function of the launch contents of the arguments.
-/
import proofs.«144274_j9294309229063_2_alg».proof.Proof.Layer1
import Idealize.ShloMosaic.Lib.StableHlo.Run
import Idealize.ShloMosaic.Lib.ValueLayout

set_option maxRecDepth 16384
set_option pp.maxSteps 5000
set_option pp.deepTerms false

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

set_option maxHeartbeats 4000000 in
/-- The propagated combined features. -/
theorem W9_v152 (c : Dev nD) : W9 (F := Ideal) m ρ c (Proc.devRef .tc main_v152) = Cert.ReferenceIdeal.ReadP.val_main_v166 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) := by
  show StableHlo.after hostOps2 (W8 m ρ c) _ = _
  dsimp only [hostOps2]
  after_results_simp
  simp only [W8_v70_0 m ρ c, W8_v1 m ρ c, W8_v3 m ρ c, W8_v32 m ρ c]
  first | done | rfl

set_option maxHeartbeats 4000000 in
/-- The link-prediction loss. -/
theorem W9_v137 (c : Dev nD) : W9 (F := Ideal) m ρ c (Proc.devRef .tc main_v137) = Cert.ReferenceIdeal.ReadP.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg14)) (m ((c : Thread nD τ).loc main_arg15)) := by
  show StableHlo.after hostOps2 (W8 m ρ c) _ = _
  dsimp only [hostOps2]
  after_results_simp
  simp only [W8_v70_1 m ρ c, W8_arg1 m ρ c, W8_arg2 m ρ c]
  first | done | rfl
set_option maxHeartbeats 4000000 in
/-- The third layer's bias as a one-by-one matrix. -/
theorem W9_v153 (c : Dev nD) (q : Fin 1) :
    (W9 (F := Ideal) m ρ c (Proc.devRef .tc main_v153) : S1x1.Idx → EReal) (ix2 (0 : Fin 1) q) = ((m ((c : Thread nD τ).loc main_arg11)) : S1.Idx → EReal) (ix1 q) := by
  dsimp only [W9, hostOps2]
  after_results_simp
  rw [W8_arg11 m ρ c]
  exact shapeCast_a_1a_apply (a := 1) _ _ (0 : Fin 1) q

set_option maxHeartbeats 4000000 in
theorem W9_v70_0 (c : Dev nD) : W9 (F := Ideal) m ρ c (Proc.devRef .tc main_v70_0) = Cert.ReferenceIdeal.ReadP.val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) := by
  show StableHlo.after hostOps2 (W8 m ρ c) _ = _
  dsimp only [hostOps2]
  after_results_simp
  exact W8_v70_0 m ρ c

set_option maxHeartbeats 4000000 in
theorem W9_arg9 (c : Dev nD) : W9 (F := Ideal) m ρ c (Proc.devRef .tc main_arg9) = (m ((c : Thread nD τ).loc main_arg9)) := by
  show StableHlo.after hostOps2 (W8 m ρ c) _ = _
  dsimp only [hostOps2]
  after_results_simp
  exact W8_arg9 m ρ c

set_option maxHeartbeats 4000000 in
theorem W9_arg10 (c : Dev nD) : W9 (F := Ideal) m ρ c (Proc.devRef .tc main_arg10) = (m ((c : Thread nD τ).loc main_arg10)) := by
  show StableHlo.after hostOps2 (W8 m ρ c) _ = _
  dsimp only [hostOps2]
  after_results_simp
  exact W8_arg10 m ρ c

end Cert.KernelIdeal.HostValue

end
-- ==== Proof.Region2.lean ====
/-
  The third layer of the network, as a whole array.

  The third call works on the 50000 rows of the hidden features in 25 blocks of 2000 rows. At every block it multiplies
  the block of hidden features and the block of propagated hidden features each by its own 100 x 1 weight column (the
  matrix unit accumulating into zero, after a narrowing of the operands that is the identity on the extended reals), adds
  the two products and adds the one-entry bias to every row. Entry (p, q) of a block is therefore
      (sum_k x (p, k) * w0 (k, q) + sum_k t (p, k) * w1 (k, q)) + b q
  of the block's rows. Row p of block t is row 2000 t + p of the array, the weights and the bias are read whole at every
  block, and the 25 blocks tile the 50000 rows: so the output array ends holding the affine map of the whole input arrays,
  entry by entry.
-/
import proofs.«144274_j9294309229063_2_alg».proof.Proof.Gen.KernelIdeal.Frame
import proofs.«144274_j9294309229063_2_alg».proof.Proof.Spec
import proofs.«144274_j9294309229063_2_alg».proof.Proof.LibPlainDot
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Region2

open Cert.KernelIdeal Cert.KernelIdeal.Gen Idealize.ShloMosaic Idealize.ShloMosaic.ValueIdx Idealize.ShloMosaic.TcCoe
open Idealize.ShloMosaic.Pipeline (Dat)

/-! ## The body's arithmetic at an entry -/

/-- One product of the body: the matrix unit accumulating into zero, both operands narrowed first (the identity on the
    extended reals), read at entry `(p, q)`, is the contraction over the 100 shared coordinates. -/
theorem product_entry (x : Vec Ideal S2000x100 .f32) (w : Vec Ideal S100x1 .f32) (p : Fin 2000) (q : Fin 1) :
    matmul (F := Ideal) dot_S2000x100_S100x1_S2000x1_1_0_0_1_n_n none
        (truncf .bf16 x bitsLt_bf16_f32) (truncf .bf16 w bitsLt_bf16_f32)
        (constant (F := Ideal) S2000x1 .f32 0x00000000#32) (ix2 p q)
      = ∑ k : Fin 100, x (ix2 p k) * w (ix2 k q) :=
  Gcn.Lib.plain_matmul_zero_apply (M := 2000) (K := 100) (N := 1) (φ₁ := .bf16) (φ₂ := .bf16)
    (truncf .bf16 x bitsLt_bf16_f32) (truncf .bf16 w bitsLt_bf16_f32) none p q

/-- The one-entry bias, recast to its own shape and broadcast down the 2000 rows, reads at `(p, q)` its entry `q`. -/
theorem bias_entry (b : Vec Ideal S1x1 .f32) (p : Fin 2000) (q : Fin 1) :
    broadcastTo S2000x1 (shapeCast S1x1 b shapeCasts_S1x1_S1x1) broadcasts_S1x1_S2000x1 (ix2 p q)
      = b (ix2 (0 : Fin 1) q) := by
  rw [shapeCast_self]
  exact broadcastTo_1b_ab_apply (a := 2000) (b := 1) b broadcasts_S1x1_S2000x1 p q

set_option maxHeartbeats 200000 in
/-- The body's stored value at entry `(p, q)`: the two contractions added, then the bias added. -/
theorem body_entry (x0 x1 : Vec Ideal S2000x100 .f32) (w0 w1 : Vec Ideal S100x1 .f32) (b : Vec Ideal S1x1 .f32)
    (p : Fin 2000) (q : Fin 1) :
    k2_pay1 (F := Ideal) x0 x1 w0 w1 b (ix2 p q)
      = Gnn.affine2At (M := 2000) (K := 100) (N := 1) x0 x1 w0 w1 (fun q => b (ix2 (0 : Fin 1) q)) p q := by
  unfold k2_pay1 Gnn.affine2At
  dsimp only
  rw [addf_apply, addf_apply, shapeCast_self, shapeCast_self, product_entry, product_entry, bias_entry]

/-! ## Blocks as parts of the arrays -/

theorem zero_offsets : (![0, 0] : Fin 2 → Nat) = fun _ => 0 := funext fun a => by fin_cases a <;> rfl

/-- The windows' index maps, decided once over the 25 grid points: the two row-blocked inputs and the output sit at block
    `(t, 0)`, the two weight columns and the one-entry bias at block `(0, 0)`. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Row `p` of the hidden-feature block at point `t` is row `2000 t + p` of the hidden features. -/
theorem features_block (c : Dev nD) (t : Fin cfg2.N) (p : Fin 2000) (k : Fin 100) (r : Fin 50000)
    (hr : r.val = 2000 * t.val + p.val) :
    (iblk2 (F := Ideal) V c 0 t : Vec Ideal S2000x100 .f32) (ix2 p k) = (V c main_v70_0 : S50000x100.Idx → EReal) (ix2 r k) := by
  obtain ⟨e0, e1, -⟩ := index_facts t
  show V c main_v70_0 (((cfg2.win 0).blk t).view.emb (ix2 p k)) = V c main_v70_0 (ix2 r k)
  refine congrArg (V c main_v70_0) (funext fun a => Fin.ext ?_)
  match a with
  | ⟨0, _⟩ => show win2_0.index t (0 : Fin 2) * 2000 + 1 * p.val = r.val; omega
  | ⟨1, _⟩ => show win2_0.index t (1 : Fin 2) * 100 + 1 * k.val = k.val; omega

/-- Row `p` of the propagated hidden-feature block at point `t` is row `2000 t + p` of the propagated hidden features. -/
theorem propagated_block (c : Dev nD) (t : Fin cfg2.N) (p : Fin 2000) (k : Fin 100) (r : Fin 50000)
    (hr : r.val = 2000 * t.val + p.val) :
    (iblk2 (F := Ideal) V c 1 t : Vec Ideal S2000x100 .f32) (ix2 p k) = (V c main_v152 : S50000x100.Idx → EReal) (ix2 r k) := by
  obtain ⟨-, -, e0, e1, -⟩ := index_facts t
  show V c main_v152 (((cfg2.win 1).blk t).view.emb (ix2 p k)) = V c main_v152 (ix2 r k)
  refine congrArg (V c main_v152) (funext fun a => Fin.ext ?_)
  match a with
  | ⟨0, _⟩ => show win2_1.index t (0 : Fin 2) * 2000 + 1 * p.val = r.val; omega
  | ⟨1, _⟩ => show win2_1.index t (1 : Fin 2) * 100 + 1 * k.val = k.val; omega

/-- The first weight column is staged whole at every point. -/
theorem weight0_block (c : Dev nD) (t : Fin cfg2.N) (k : Fin 100) (q : Fin 1) :
    (iblk2 (F := Ideal) V c 2 t : Vec Ideal S100x1 .f32) (ix2 k q) = (V c main_arg9 : S100x1.Idx → EReal) (ix2 k q) := by
  obtain ⟨-, -, -, -, e0, e1, -⟩ := index_facts t
  show V c main_arg9 (((cfg2.win 2).blk t).view.emb (ix2 k q)) = V c main_arg9 (ix2 k q)
  refine congrArg (V c main_arg9) (funext fun a => Fin.ext ?_)
  match a with
  | ⟨0, _⟩ => show win2_2.index t (0 : Fin 2) * 100 + 1 * k.val = k.val; omega
  | ⟨1, _⟩ => show win2_2.index t (1 : Fin 2) * 1 + 1 * q.val = q.val; omega

/-- The second weight column is staged whole at every point. -/
theorem weight1_block (c : Dev nD) (t : Fin cfg2.N) (k : Fin 100) (q : Fin 1) :
    (iblk2 (F := Ideal) V c 3 t : Vec Ideal S100x1 .f32) (ix2 k q) = (V c main_arg10 : S100x1.Idx → EReal) (ix2 k q) := by
  obtain ⟨-, -, -, -, -, -, e0, e1, -⟩ := index_facts t
  show V c main_arg10 (((cfg2.win 3).blk t).view.emb (ix2 k q)) = V c main_arg10 (ix2 k q)
  refine congrArg (V c main_arg10) (funext fun a => Fin.ext ?_)
  match a with
  | ⟨0, _⟩ => show win2_3.index t (0 : Fin 2) * 100 + 1 * k.val = k.val; omega
  | ⟨1, _⟩ => show win2_3.index t (1 : Fin 2) * 1 + 1 * q.val = q.val; omega

/-- The one-entry bias is staged whole at every point. -/
theorem bias_block (c : Dev nD) (t : Fin cfg2.N) (q : Fin 1) :
    (iblk2 (F := Ideal) V c 4 t : Vec Ideal S1x1 .f32) (ix2 (0 : Fin 1) q) = (V c main_v153 : S1x1.Idx → EReal) (ix2 (0 : Fin 1) q) := by
  obtain ⟨-, -, -, -, -, -, -, -, e0, e1, -⟩ := index_facts t
  show V c main_v153 (((cfg2.win 4).blk t).view.emb (ix2 (0 : Fin 1) q)) = V c main_v153 (ix2 (0 : Fin 1) q)
  refine congrArg (V c main_v153) (funext fun a => Fin.ext ?_)
  match a with
  | ⟨0, _⟩ => show win2_4.index t (0 : Fin 2) * 1 + 1 * (0 : Fin 1).val = (0 : Fin 1).val; omega
  | ⟨1, _⟩ => show win2_4.index t (1 : Fin 2) * 1 + 1 * q.val = q.val; omega

/-- Entry `(p, q)` of the output block at point `t` sits at `(2000 t + p, q)` of the output array. -/
theorem output_place (t : Fin cfg2.N) (p : Fin 2000) (q : Fin 1) (r : Fin 50000) (hr : r.val = 2000 * t.val + p.val) :
    ((cfg2.win 5).blk t).view.emb (ix2 p q) = (ix2 r q : S50000x1.Idx) := by
  obtain ⟨-, -, -, -, -, -, -, -, -, -, e0, e1⟩ := index_facts t
  refine funext fun a => Fin.ext ?_
  match a with
  | ⟨0, _⟩ => show win2_5.index t (0 : Fin 2) * 2000 + 1 * p.val = r.val; omega
  | ⟨1, _⟩ => show win2_5.index t (1 : Fin 2) * 1 + 1 * q.val = q.val; omega

/-! ## What a point writes back, and the whole array -/

/-- The two-matrix affine map depends on its arguments only through the entries it reads. -/
theorem affine2At_congr {M M' K N : ℕ} (x t : (⟨2, ![M, K]⟩ : Shape).Idx → EReal) (x' t' : (⟨2, ![M', K]⟩ : Shape).Idx → EReal)
    (w0 w1 w0' w1' : (⟨2, ![K, N]⟩ : Shape).Idx → EReal) (b b' : Fin N → EReal) (p : Fin M) (p' : Fin M') (q : Fin N)
    (hx : ∀ k, x (ix2 p k) = x' (ix2 p' k)) (ht : ∀ k, t (ix2 p k) = t' (ix2 p' k))
    (h0 : ∀ k, w0 (ix2 k q) = w0' (ix2 k q)) (h1 : ∀ k, w1 (ix2 k q) = w1' (ix2 k q)) (hb : b q = b' q) :
    Gnn.affine2At x t w0 w1 b p q = Gnn.affine2At x' t' w0' w1' b' p' q := by
  unfold Gnn.affine2At
  simp only [hx, ht, h0, h1, hb]

/-- The third layer of the whole arrays as the region finds them. -/
abbrev layer (c : Dev nD) : S50000x1.Idx → EReal :=
  Gnn.dense (M := 50000) (K := 100) (N := 1) (V c main_v70_0) (V c main_v152) (V c main_arg9) (V c main_arg10)
    (fun q => V c main_v153 (ix2 (0 : Fin 1) q))

set_option maxHeartbeats 400000 in
/-- What point `t` writes back is block `t` of the first layer of the whole arrays. -/
theorem flushed_eq (c : Dev nD) (t : Fin cfg2.N) :
    (dat2 (F := Ideal) V c).flushed 5 t = ((cfg2.win 5).blk t).view.read (Elt Ideal) (layer V c) := by
  show (cfg2.win 5).cut (grid2.coords t) ((dat2 V c).after 5 t) = _
  rw [after2_5]
  unfold out2_5
  rw [View.canon_unit_zero zero_offsets]
  simp only [View.ld_unit_zero (S := S2000x100) zero_offsets, View.ld_unit_zero (S := S100x1) zero_offsets,
    View.ld_unit_zero (S := S1x1) zero_offsets]
  refine funext fun (j : S2000x1.Idx) => ?_
  obtain ⟨p, q, rfl⟩ : ∃ (p : Fin 2000) (q : Fin 1), j = ix2 p q := ⟨j 0, j 1, eq_ix2 j⟩
  have hN : cfg2.N = 25 := N_2
  have hr : 2000 * t.val + p.val < 50000 := by have := t.isLt; omega
  show k2_pay1 (F := Ideal) (iblk2 V c 0 t) (iblk2 V c 1 t) (iblk2 V c 2 t) (iblk2 V c 3 t) (iblk2 V c 4 t) (ix2 p q)
    = layer V c (((cfg2.win 5).blk t).view.emb (ix2 p q))
  rw [output_place t p q ⟨2000 * t.val + p.val, hr⟩ rfl]
  refine (body_entry (iblk2 V c 0 t) (iblk2 V c 1 t) (iblk2 V c 2 t) (iblk2 V c 3 t) (iblk2 V c 4 t) p q).trans ?_
  refine Eq.trans ?_ (Gnn.dense_apply _ _ _ _ _ _ q).symm
  exact affine2At_congr _ _ _ _ _ _ _ _ _ _ p ⟨2000 * t.val + p.val, hr⟩ q
    (fun k => features_block V c t p k _ rfl) (fun k => propagated_block V c t p k _ rfl)
    (fun k => weight0_block V c t k q) (fun k => weight1_block V c t k q) (bias_block V c t q)

/-- An index of the output array is in point `t`'s block iff each coordinate is in the block's range on its axis. -/
theorem mem_blk (t : Fin cfg2.N) (i : S50000x1.Idx) :
    i ∈ ((cfg2.win 5).blk t).view.set ↔ ∀ a : Fin 2, win2_5.index t a * S2000x1.size a ≤ (i a).val ∧ (i a).val < win2_5.index t a * S2000x1.size a + S2000x1.size a := by
  show i ∈ ((View.whole main_v154).slice (win2_5.rect t)).set ↔ _
  rw [View.set_slice_whole, Rect.mem_set_unit]
  exact Iff.rfl

/-- Every entry of the output array is written: row `r` lies in the block of point `r / 2000`. -/
theorem cover (i : S50000x1.Idx) :
    ∃ t : Fin cfg2.N, (cfg2.win 5).flush t = true ∧ i ∈ ((cfg2.win 5).blk t).view.set := by
  have hi0 : (i 0).val < 50000 := (i 0).isLt
  have hi1 : (i 1).val < 1 := (i 1).isLt
  have hN : cfg2.N = 25 := N_2
  have ht : (i 0).val / 2000 < cfg2.N := by rw [hN]; omega
  obtain ⟨-, -, -, -, -, -, -, -, -, -, e0, e1⟩ := index_facts ⟨(i 0).val / 2000, ht⟩
  refine ⟨⟨(i 0).val / 2000, ht⟩, flush2_5 _, ?_⟩
  rw [mem_blk]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 1 ≤ (i 1).val
      ∧ (i 1).val < win2_5.index ⟨(i 0).val / 2000, ht⟩ (1 : Fin 2) * 1 + 1
    omega

/-- THE OUTPUT ARRAY after the third call: the third layer of the whole input arrays, entry by entry. -/
theorem arr (c : Dev nD) :
    (dat2 (F := Ideal) V c).arrAt 5 cfg2.N
      = Gnn.dense (M := 50000) (K := 100) (N := 1) (V c main_v70_0) (V c main_v152) (V c main_arg9) (V c main_arg10)
          (fun q => V c main_v153 (ix2 (0 : Fin 1) q)) :=
  (dat2 V c).arrAt_eq_of_cover 5 (layer V c) (fun t _ => flushed_eq V c t) cover

end Cert.KernelIdeal.Region2

end
-- ==== Proof.Layer2.lean ====
/-
  The two computed results at the end of the run are the reference's.

  The third region's output array is the bare two-matrix affine map of the combined features and their propagation, which is
  the reference's last stage; the region does not write the loss, which stays at the reference's loss stage.
-/
import proofs.«144274_j9294309229063_2_alg».proof.Proof.HostC
import proofs.«144274_j9294309229063_2_alg».proof.Proof.Region2
import proofs.«144274_j9294309229063_2_alg».proof.Proof.RefDense

set_option maxRecDepth 16384
set_option pp.maxSteps 5000
set_option pp.deepTerms false

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The network's output. -/
theorem W10_v154 (c : Dev nD) : W10 (F := Ideal) m ρ c (Proc.devRef .tc main_v154) = Cert.ReferenceIdeal.ReadP.val_main_v172 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W10_arr m ρ c 5).trans ?_
  refine (Cert.KernelIdeal.Region2.arr (V9 m ρ) c).trans ?_
  refine Eq.trans ?_ (Cert.ReferenceIdeal.RefDense.out_eq _ _ _ _ _ _ _ _ _ _ _ _ _).symm
  simp only [V9, W9_v70_0 m ρ c, W9_v152 m ρ c, W9_arg9 m ρ c, W9_arg10 m ρ c, W9_v153 m ρ c]

/-- The loss. -/
theorem W10_v137 (c : Dev nD) : W10 (F := Ideal) m ρ c (Proc.devRef .tc main_v137) = Cert.ReferenceIdeal.ReadP.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg14)) (m ((c : Thread nD τ).loc main_arg15)) :=
  (W10_of_ne m ρ c main_v137 (by decide)).trans (W9_v137 m ρ c)

end Cert.KernelIdeal.HostValue

end
-- ==== Proof.lean ====
/-
  The certificate: the kernel (three tiled dense stages among host-side graph operations) against its reference.

  At the ideal instance both programs compute the same function of the arguments. The host-side graph operations — degrees,
  edge weights, the three propagations along the edges, the link-prediction loss — are the same operations in the same
  order in both programs (the kernel's program also rounds gathered rows to a narrower float format and back: the identity
  on the extended reals). Each of the kernel's three regions computes, row block by row block, a two-matrix affine map of
  its input arrays (clamped at zero in the first two, with clamped one-matrix side branches added in the second), with the
  additions in the order the reference makes them; the matrix unit accumulating into zero and the host's contraction are the
  same sum over the contracted coordinate. So no algebraic law beyond that is used, and the precondition is never opened.

  The three frames: the two kernel programs' by the generated frame certificates, the reference's by its run with the results
  dropped. The idealization rewrote nothing, so nothing is owed for it. The equivalence: the idealized kernel's run ends
  with the two results at the last boundary's contents (KernelRun), which are the reference's last stages of the launch
  arguments (Layer2, over the host stretches and the regions in turn); the reference's run ends with its results at the same
  stages of its own arguments, which agree with the kernel's.
-/
import proofs.«144274_j9294309229063_2_alg».proof.Defs
import proofs.«144274_j9294309229063_2_alg».proof.Proof.Gen.Kernel
import proofs.«144274_j9294309229063_2_alg».proof.Proof.Gen.Kernel.Skeleton
import proofs.«144274_j9294309229063_2_alg».proof.Proof.Gen.Kernel.Launch
import proofs.«144274_j9294309229063_2_alg».proof.Proof.Gen.Kernel.Points
import proofs.«144274_j9294309229063_2_alg».proof.Proof.Gen.Kernel.Frame
import proofs.«144274_j9294309229063_2_alg».proof.Proof.Gen.KernelIdeal
import proofs.«144274_j9294309229063_2_alg».proof.Proof.Gen.KernelIdeal.Skeleton
import proofs.«144274_j9294309229063_2_alg».proof.Proof.Gen.KernelIdeal.Launch
import proofs.«144274_j9294309229063_2_alg».proof.Proof.Gen.KernelIdeal.Points
import proofs.«144274_j9294309229063_2_alg».proof.Proof.Gen.KernelIdeal.Frame
import proofs.«144274_j9294309229063_2_alg».proof.Proof.Gen.ReferenceIdeal
import proofs.«144274_j9294309229063_2_alg».proof.Proof.Gen.Pre_finite_inputs
import proofs.«144274_j9294309229063_2_alg».proof.Proof.KernelRun
import proofs.«144274_j9294309229063_2_alg».proof.Proof.Layer2
import proofs.«144274_j9294309229063_2_alg».proof.Proof.RefRunPatched
import proofs.«144274_j9294309229063_2_alg».proof.Proof.RefReadEq
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the results dropped. -/
theorem frame_reference : Cert.frame_ReferenceIdeal :=
  fun m ρ _ => (θ_run Cert.ReferenceIdeal.defs _ _).mono (fun _ h c => (h c).2.2.2.2)
    (Cert.ReferenceIdeal.ValueP.run (F := Ideal) m ρ)

/-- From memories agreeing on the arguments both idealized programs end with the same two computed results — the reference's
    last stages of the kernel's launch arguments — and pass the two scalar arguments through. -/
theorem algebraic : Cert.algebraic_KernelIdeal_ReferenceIdeal := by
  intro m ρ m' ρ' _ hagree
  refine ⟨fun c => Cert.KernelIdeal.Gen.W10 (F := Ideal) m ρ c (Proc.devRef .tc Cert.KernelIdeal.main_v154),
    fun c => Cert.KernelIdeal.Gen.W10 (F := Ideal) m ρ c (Proc.devRef .tc Cert.KernelIdeal.main_v137),
    fun c => m ((c.tc : Thread Cert.KernelIdeal.nD Cert.KernelIdeal.τ).loc Cert.KernelIdeal.main_arg16),
    fun c => m ((c.tc : Thread Cert.KernelIdeal.nD Cert.KernelIdeal.τ).loc Cert.KernelIdeal.main_arg17), ?_, ?_⟩
  · refine (θ_run Cert.KernelIdeal.defs _ _).mono (fun r h c => ?_) (Cert.KernelIdeal.RunValue.run_results (F := Ideal) m ρ)
    obtain ⟨⟨h154, h137⟩, hall⟩ := h c
    open Cert.KernelIdeal in
    exact ⟨h154, h137,
      (hall main_arg16 (by decide)).trans (Cert.KernelIdeal.Gen.W10_main_arg16 m ρ c),
      (hall main_arg17 (by decide)).trans (Cert.KernelIdeal.Gen.W10_main_arg17 m ρ c),
      (hall main_arg0 (by decide)).trans (Cert.KernelIdeal.Gen.W10_main_arg0 m ρ c),
      (hall main_arg1 (by decide)).trans (Cert.KernelIdeal.Gen.W10_main_arg1 m ρ c),
      (hall main_arg2 (by decide)).trans (Cert.KernelIdeal.Gen.W10_main_arg2 m ρ c),
      (hall main_arg3 (by decide)).trans (Cert.KernelIdeal.Gen.W10_main_arg3 m ρ c),
      (hall main_arg4 (by decide)).trans (Cert.KernelIdeal.Gen.W10_main_arg4 m ρ c),
      (hall main_arg5 (by decide)).trans (Cert.KernelIdeal.Gen.W10_main_arg5 m ρ c),
      (hall main_arg6 (by decide)).trans (Cert.KernelIdeal.Gen.W10_main_arg6 m ρ c),
      (hall main_arg7 (by decide)).trans (Cert.KernelIdeal.Gen.W10_main_arg7 m ρ c),
      (hall main_arg8 (by decide)).trans (Cert.KernelIdeal.Gen.W10_main_arg8 m ρ c),
      (hall main_arg9 (by decide)).trans (Cert.KernelIdeal.Gen.W10_main_arg9 m ρ c),
      (hall main_arg10 (by decide)).trans (Cert.KernelIdeal.Gen.W10_main_arg10 m ρ c),
      (hall main_arg11 (by decide)).trans (Cert.KernelIdeal.Gen.W10_main_arg11 m ρ c),
      (hall main_arg12 (by decide)).trans (Cert.KernelIdeal.Gen.W10_main_arg12 m ρ c),
      (hall main_arg13 (by decide)).trans (Cert.KernelIdeal.Gen.W10_main_arg13 m ρ c),
      (hall main_arg14 (by decide)).trans (Cert.KernelIdeal.Gen.W10_main_arg14 m ρ c),
      (hall main_arg15 (by decide)).trans (Cert.KernelIdeal.Gen.W10_main_arg15 m ρ c),
      (hall main_arg16 (by decide)).trans (Cert.KernelIdeal.Gen.W10_main_arg16 m ρ c),
      (hall main_arg17 (by decide)).trans (Cert.KernelIdeal.Gen.W10_main_arg17 m ρ c)⟩
  · refine (θ_run Cert.ReferenceIdeal.defs _ _).mono (fun r h c => ?_) (Cert.ReferenceIdeal.ValueP.run (F := Ideal) m' ρ')
    obtain ⟨h172, h153, h16, h17, hargs⟩ := h c
    refine ⟨h172.trans ?_, h153.trans ?_, h16.trans (hagree c).2.2.2.2.2.2.2.2.2.2.2.2.2.2.2.2.1, h17.trans (hagree c).2.2.2.2.2.2.2.2.2.2.2.2.2.2.2.2.2, hargs⟩
    · rw [Cert.ReferenceIdeal.ReadP.val_main_v172_eq, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
      exact (Cert.KernelIdeal.HostValue.W10_v154 m ρ c).symm
    · rw [Cert.ReferenceIdeal.ReadP.val_main_v153_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.2.2.2.1, (hagree c).2.2.2.2.2.2.2.2.2.2.2.2.2.2.2.1]
      exact (Cert.KernelIdeal.HostValue.W10_v137 m ρ c).symm

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, trivial, Claims.algebraic⟩

end Cert.Proof

end
